-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part5 {F : FTy → Type} [FloatOps F] (main_arg19 : FVec F S2048x1024 .f32) (main_arg20 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S2048x1024 .f32 := Host.absf main_arg19
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S1024 .f32 := Host.absf main_arg20
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  main_v98

def fn_part4 {F : FTy → Type} [FloatOps F] (main_arg15 : FVec F S3072x1024 .f32) (main_arg16 : FVec F S1024 .f32) (main_arg17 : FVec F S2048x1024 .f32) (main_arg18 : FVec F S1024 .f32) (main_arg19 : FVec F S2048x1024 .f32) (main_arg20 : FVec F S1024 .f32) (main_v63 : IVec S_ 1) (main_v67 : IVec S_ 1) : IVec S_ 1 :=
  let main_v68 : IVec S_ 1 := andi main_v63 main_v67
  let main_v69 : FVec F S3072x1024 .f32 := Host.absf main_arg15
  let main_cst_26 : FVec F S_ .f32 := constant S_ .f32 0x7F800000#32
  let main_v70 : FVec F S3072x1024 .f32 := broadcastInDim S3072x1024 ![] bcast_S_S3072x1024 main_cst_26
  let main_v71 : IVec S3072x1024 1 := cmpf .olt main_v69 main_v70
  let main_c_27 : IVec S_ 1 := constantI S_ 1 1#1
  let main_v72 : IVec S_ 1 := (fun x v => Host.reduce IntOp.andi x v reducesTo_S3072x1024_S_d0_1 h_S_) main_v71 main_c_27
  let main_v73 : IVec S_ 1 := andi main_v68 main_v72
  let main_v74 : FVec F S1024 .f32 := Host.absf main_arg16
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S2048x1024 .f32 := Host.absf main_arg17
  let main_cst_30 : FVec F S_ .f32 := constant S_ .f32 0x7F800000#32
  let main_v80 : FVec F S2048x1024 .f32 := broadcastInDim S2048x1024 ![] bcast_S_S2048x1024 main_cst_30
  let main_v81 : IVec S2048x1024 1 := cmpf .olt main_v79 main_v80
  let main_c_31 : IVec S_ 1 := constantI S_ 1 1#1
  let main_v82 : IVec S_ 1 := (fun x v => Host.reduce IntOp.andi x v reducesTo_S2048x1024_S_d0_1 h_S_) main_v81 main_c_31
  let main_v83 : IVec S_ 1 := andi main_v78 main_v82
  let main_v84 : FVec F S1024 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S1024 .f32) (main_arg13 : FVec F S3072x1024 .f32) (main_arg14 : FVec F S1024 .f32) (main_arg15 : FVec F S3072x1024 .f32) (main_arg16 : FVec F S1024 .f32) (main_arg17 : FVec F S2048x1024 .f32) (main_arg18 : FVec F S1024 .f32) (main_arg19 : FVec F S2048x1024 .f32) (main_arg20 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S3072x1024 .f32 := Host.absf main_arg13
  let main_cst_22 : FVec F S_ .f32 := constant S_ .f32 0x7F800000#32
  let main_v60 : FVec F S3072x1024 .f32 := broadcastInDim S3072x1024 ![] bcast_S_S3072x1024 main_cst_22
  let main_v61 : IVec S3072x1024 1 := cmpf .olt main_v59 main_v60
  let main_c_23 : IVec S_ 1 := constantI S_ 1 1#1
  let main_v62 : IVec S_ 1 := (fun x v => Host.reduce IntOp.andi x v reducesTo_S3072x1024_S_d0_1 h_S_) main_v61 main_c_23
  let main_v63 : IVec S_ 1 := andi main_v58 main_v62
  let main_v64 : FVec F S1024 .f32 := Host.absf main_arg14
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg15 main_arg16 main_arg17 main_arg18 main_arg19 main_arg20 main_v63 main_v67

def fn_part2 {F : FTy → Type} [FloatOps F] (main_arg8 : FVec F S1024 .f32) (main_arg9 : FVec F S1024x1024 .f32) (main_arg10 : FVec F S1024 .f32) (main_arg11 : FVec F S1024x1024 .f32) (main_arg12 : FVec F S1024 .f32) (main_arg13 : FVec F S3072x1024 .f32) (main_arg14 : FVec F S1024 .f32) (main_arg15 : FVec F S3072x1024 .f32) (main_arg16 : FVec F S1024 .f32) (main_arg17 : FVec F S2048x1024 .f32) (main_arg18 : FVec F S1024 .f32) (main_arg19 : FVec F S2048x1024 .f32) (main_arg20 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg11
  let main_cst_18 : FVec F S_ .f32 := constant S_ .f32 0x7F800000#32
  let main_v50 : FVec F S1024x1024 .f32 := broadcastInDim S1024x1024 ![] bcast_S_S1024x1024 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S3072x1024 .f32) (main_arg6 : FVec F S1024 .f32) (main_arg7 : FVec F S3072x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S3072x1024 .f32) (main_arg14 : FVec F S1024 .f32) (main_arg15 : FVec F S3072x1024 .f32) (main_arg16 : FVec F S1024 .f32) (main_arg17 : FVec F S2048x1024 .f32) (main_arg18 : FVec F S1024 .f32) (main_arg19 : FVec F S2048x1024 .f32) (main_arg20 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S3072x1024 .f32 := Host.absf main_arg5
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3072x1024 .f32 := Host.absf main_arg7
  let main_cst_10 : FVec F S_ .f32 := constant S_ .f32 0x7F800000#32
  let main_v30 : FVec F S3072x1024 .f32 := broadcastInDim S3072x1024 ![] bcast_S_S3072x1024 main_cst_10
  let main_v31 : IVec S3072x1024 1 := cmpf .olt main_v29 main_v30
  let main_c_11 : IVec S_ 1 := constantI S_ 1 1#1
  let main_v32 : IVec S_ 1 := (fun x v => Host.reduce IntOp.andi x v reducesTo_S3072x1024_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : IVec S8192 32) (main_arg5 : FVec F S3072x1024 .f32) (main_arg6 : FVec F S1024 .f32) (main_arg7 : FVec F S3072x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S3072x1024 .f32) (main_arg14 : FVec F S1024 .f32) (main_arg15 : FVec F S3072x1024 .f32) (main_arg16 : FVec F S1024 .f32) (main_arg17 : FVec F S2048x1024 .f32) (main_arg18 : FVec F S1024 .f32) (main_arg19 : FVec F S2048x1024 .f32) (main_arg20 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x1024 : Shape := ⟨2, ![8192, 1024]⟩
abbrev S8192 : Shape := ⟨1, ![8192]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S128x1024 : Shape := ⟨2, ![128, 1024]⟩
abbrev S128x3072 : Shape := ⟨2, ![128, 3072]⟩
abbrev S128x2048 : Shape := ⟨2, ![128, 2048]⟩
abbrev S8192x1 : Shape := ⟨2, ![8192, 1]⟩
abbrev S_ : Shape := ⟨0, ![]⟩

abbrev nBuf : Space → Nat
  | .hbm => 52
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192, .i32⟩
  | .hbm, ⟨5, _⟩ => ⟨S3072x1024, .f32⟩
  | .hbm, ⟨6, _⟩ => ⟨S1024, .f32⟩
  | .hbm, ⟨7, _⟩ => ⟨S3072x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S3072x1024, .f32⟩
  | .hbm, ⟨14, _⟩ => ⟨S1024, .f32⟩
  | .hbm, ⟨15, _⟩ => ⟨S3072x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S3072x1024, .bf16⟩
  | .hbm, ⟨22, _⟩ => ⟨S1x1024, .f32⟩
  | .hbm, ⟨23, _⟩ => ⟨S3072x1024, .bf16⟩
  | .hbm, ⟨24, _⟩ => ⟨S1x1024, .f32⟩
  | .hbm, ⟨25, _⟩ => ⟨S1024x1024, .bf16⟩
  | .hbm, ⟨26, _⟩ => ⟨S1x1024, .f32⟩
  | .hbm, ⟨27, _⟩ => ⟨S1024x1024, .bf16⟩
  | .hbm, ⟨28, _⟩ => ⟨S1x1024, .f32⟩
  | .hbm, ⟨29, _⟩ => ⟨S8192x1024, .f32⟩
  | .hbm, ⟨30, _⟩ => ⟨S3072x1024, .bf16⟩
  | .hbm, ⟨31, _⟩ => ⟨S1x1024, .f32⟩
  | .hbm, ⟨32, _⟩ => ⟨S3072x1024, .bf16⟩
  | .hbm, ⟨33, _⟩ => ⟨S1x1024, .f32⟩
  | .hbm, ⟨34, _⟩ => ⟨S2048x1024, .bf16⟩
  | .hbm, ⟨35, _⟩ => ⟨S1x1024, .f32⟩
  | .hbm, ⟨36, _⟩ => ⟨S2048x1024, .bf16⟩
  | .hbm, ⟨37, _⟩ => ⟨S1x1024, .f32⟩
  | .hbm, ⟨38, _⟩ => ⟨S8192x1024, .f32⟩
  | .hbm, ⟨39, _⟩ => ⟨S8192x1, .i32⟩
  | .hbm, ⟨40, _⟩ => ⟨S_, .f32⟩
  | .hbm, ⟨41, _⟩ => ⟨S8192x1024, .f32⟩
  | .hbm, ⟨42, _⟩ => ⟨S_, .i32⟩
  | .hbm, ⟨43, _⟩ => ⟨S8192x1, .i32⟩
  | .hbm, ⟨44, _⟩ => ⟨S8192x1, .i1⟩
  | .hbm, ⟨45, _⟩ => ⟨S_, .i32⟩
  | .hbm, ⟨46, _⟩ => ⟨S8192x1, .i32⟩
  | .hbm, ⟨47, _⟩ => ⟨S8192x1, .i1⟩
  | .hbm, ⟨48, _⟩ => ⟨S8192x1024, .i1⟩
  | .hbm, ⟨49, _⟩ => ⟨S8192x1024, .f32⟩
  | .hbm, ⟨50, _⟩ => ⟨S8192x1024, .i1⟩
  | .hbm, ⟨51, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S3072x1024, .bf16⟩
  | .local _ .vmem, ⟨7, _⟩ => ⟨S1x1024, .f32⟩
  | .local _ .vmem, ⟨8, _⟩ => ⟨S3072x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S3072x1024, .bf16⟩
  | .local _ .vmem, ⟨25, _⟩ => ⟨S1x1024, .f32⟩
  | .local _ .vmem, ⟨26, _⟩ => ⟨S3072x1024, .bf16⟩
  | .local _ .vmem, ⟨27, _⟩ => ⟨S1x1024, .f32⟩
  | .local _ .vmem, ⟨28, _⟩ => ⟨S2048x1024, .bf16⟩
  | .local _ .vmem, ⟨29, _⟩ => ⟨S1x1024, .f32⟩
  | .local _ .vmem, ⟨30, _⟩ => ⟨S2048x1024, .bf16⟩
  | .local _ .vmem, ⟨31, _⟩ => ⟨S1x1024, .f32⟩
  | .local _ .vmem, ⟨32, _⟩ => ⟨S128x1024, .f32⟩
  | .local _ .vmem, ⟨33, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_0 : Ref sig .tc := ⟨.hbm, 45, rfl⟩
abbrev main_v22 : Ref sig .tc := ⟨.hbm, 46, rfl⟩
abbrev main_v23 : Ref sig .tc := ⟨.hbm, 47, rfl⟩
abbrev main_call0_v0 : Ref sig .tc := ⟨.hbm, 48, rfl⟩
abbrev main_v24 : Ref sig .tc := ⟨.hbm, 49, rfl⟩
abbrev main_call1_v0 : Ref sig .tc := ⟨.hbm, 50, rfl⟩
abbrev main_v25 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg12_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem12_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3072x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3072x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2048x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2048x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S128x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  concatenates_S128x1024_S128x1024_S128x1024_S128x3072_d1 : Shape.Concatenates [S128x1024, S128x1024, S128x1024] S128x3072 1
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  concatenates_S128x1024_S128x1024_S128x2048_d1 : Shape.Concatenates [S128x1024, S128x1024] S128x2048 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bcast_S8192_S8192x1_0 : S8192.BroadcastsInDim S8192x1 (![0] : Fin 1 → Fin S8192x1.rank)
  bcast_S_S8192x1024 : S_.BroadcastsInDim S8192x1024 (![] : Fin 0 → Fin S8192x1024.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S128x3072_S3072x1024_S128x1024_1_0_0_1_n_n_wf : DotDims.WF S128x3072 S3072x1024 S128x1024 [1] [0] [0] [1] [] []
  dot_S128x1024_S1024x1024_S128x1024_1_0_0_1_n_n_wf : DotDims.WF S128x1024 S1024x1024 S128x1024 [1] [0] [0] [1] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x1024.size a ≤ S3072x1024.size a
  hwx0_3 : ∀ i : grid0.Coords, EltTy.bits .bf16 = 32 ∨ (Rect.block (s := S3072x1024) S3072x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072x1024.size a ≤ S3072x1024.size a
  hwx0_5 : ∀ i : grid0.Coords, EltTy.bits .bf16 = 32 ∨ (Rect.block (s := S3072x1024) S3072x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S8192x1024.size a
  hwx0_11 : ∀ i : grid0.Coords, EltTy.bits .f32 = 32 ∨ (Rect.block (s := S8192x1024) S128x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S8192x1024.size a
  hwx1_0 : ∀ i : grid1.Coords, EltTy.bits .f32 = 32 ∨ (Rect.block (s := S8192x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S8192x1024.size a
  hwx1_1 : ∀ i : grid1.Coords, EltTy.bits .f32 = 32 ∨ (Rect.block (s := S8192x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S8192x1024.size a
  hwx1_2 : ∀ i : grid1.Coords, EltTy.bits .f32 = 32 ∨ (Rect.block (s := S8192x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S8192x1024.size a
  hwx1_3 : ∀ i : grid1.Coords, EltTy.bits .f32 = 32 ∨ (Rect.block (s := S8192x1024) S128x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3072x1024.size a ≤ S3072x1024.size a
  hwx1_4 : ∀ i : grid1.Coords, EltTy.bits .bf16 = 32 ∨ (Rect.block (s := S3072x1024) S3072x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3072x1024.size a ≤ S3072x1024.size a
  hwx1_6 : ∀ i : grid1.Coords, EltTy.bits .bf16 = 32 ∨ (Rect.block (s := S3072x1024) S3072x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2048x1024.size a ≤ S2048x1024.size a
  hwx1_8 : ∀ i : grid1.Coords, EltTy.bits .bf16 = 32 ∨ (Rect.block (s := S2048x1024) S2048x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2048x1024.size a ≤ S2048x1024.size a
  hwx1_10 : ∀ i : grid1.Coords, EltTy.bits .bf16 = 32 ∨ (Rect.block (s := S2048x1024) S2048x1024.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1024.size a ≤ S1x1024.size a
  hwx1_11 : ∀ i : grid1.Coords, EltTy.bits .f32 = 32 ∨ (Rect.block (s := S1x1024) S1x1024.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128x1024.size a ≤ S8192x1024.size a
  hwx1_12 : ∀ i : grid1.Coords, EltTy.bits .f32 = 32 ∨ (Rect.block (s := S8192x1024) S128x1024.size (cc1_transform_12 i) (hinb1_12 i)).WholeWords (EltTy.packing .f32)

variable [Facts₀]

def dot_S128x3072_S3072x1024_S128x1024_1_0_0_1_n_n : DotDims S128x3072 S3072x1024 S128x1024 where
  lhsContracting := [1]
  rhsContracting := [0]
  lhsNonContracting := [0]
  rhsNonContracting := [1]
  lhsBatch := []
  rhsBatch := []
  wf := dot_S128x3072_S3072x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3072x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3072x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S3072x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S3072x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S2048x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v15) S2048x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16) S1x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v17) S128x1024.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S3072x1024 : Shape := ⟨2, ![3072, 1024]⟩
abbrev S1024 : Shape := ⟨1, ![1024]⟩
abbrev S1024x1024 : Shape := ⟨2, ![1024, 1024]⟩
abbrev S2048x1024 : Shape := ⟨2, ![2048, 1024]⟩
abbrev S8192x2048 : Shape := ⟨2, ![8192, 2048]⟩
abbrev S8192x3072 : Shape := ⟨2, ![8192, 3072]⟩
abbrev S1x1024 : Shape := ⟨2, ![1, 1024]⟩
abbrev S_ : Shape := ⟨0, ![]⟩
abbrev S8192x1 : Shape := ⟨2, ![8192, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192, .i32⟩
  | .hbm, ⟨5, _⟩ => ⟨S3072x1024, .f32⟩
  | .hbm, ⟨6, _⟩ => ⟨S1024, .f32⟩
  | .hbm, ⟨7, _⟩ => ⟨S3072x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S3072x1024, .f32⟩
  | .hbm, ⟨14, _⟩ => ⟨S1024, .f32⟩
  | .hbm, ⟨15, _⟩ => ⟨S3072x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S8192x2048, .f32⟩
  | .hbm, ⟨22, _⟩ => ⟨S8192x3072, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x3072, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x2048, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1, .i32⟩
  | .hbm, ⟨98, _⟩ => ⟨S_, .i32⟩
  | .hbm, ⟨99, _⟩ => ⟨S8192x1, .i32⟩
  | .hbm, ⟨100, _⟩ => ⟨S8192x1, .i1⟩
  | .hbm, ⟨101, _⟩ => ⟨S_, .i32⟩
  | .hbm, ⟨102, _⟩ => ⟨S8192x1, .i32⟩
  | .hbm, ⟨103, _⟩ => ⟨S8192x1, .i1⟩
  | .hbm, ⟨104, _⟩ => ⟨S_, .f32⟩
  | .hbm, ⟨105, _⟩ => ⟨S8192x1024, .f32⟩
  | .hbm, ⟨106, _⟩ => ⟨S8192x1024, .i1⟩
  | .hbm, ⟨107, _⟩ => ⟨S8192x1024, .f32⟩
  | .hbm, ⟨108, _⟩ => ⟨S8192x1024, .i1⟩
  | .hbm, ⟨109, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_cst_6 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c : Ref sig .tc := ⟨.hbm, 98, rfl⟩
abbrev main_v69 : Ref sig .tc := ⟨.hbm, 99, rfl⟩
abbrev main_v70 : Ref sig .tc := ⟨.hbm, 100, rfl⟩
abbrev main_c_7 : Ref sig .tc := ⟨.hbm, 101, rfl⟩
abbrev main_v71 : Ref sig .tc := ⟨.hbm, 102, rfl⟩
abbrev main_v72 : Ref sig .tc := ⟨.hbm, 103, rfl⟩
abbrev main_cst_8 : Ref sig .tc := ⟨.hbm, 104, rfl⟩
abbrev main_v73 : Ref sig .tc := ⟨.hbm, 105, rfl⟩
abbrev main_call0_v0 : Ref sig .tc := ⟨.hbm, 106, rfl⟩
abbrev main_v74 : Ref sig .tc := ⟨.hbm, 107, rfl⟩
abbrev main_call1_v0 : Ref sig .tc := ⟨.hbm, 108, rfl⟩
abbrev main_v75 : Ref sig .tc := ⟨.hbm, 109, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S8192x1024_S8192x2048_S8192x3072_d1 : Shape.Concatenates [S8192x1024, S8192x2048] S8192x3072 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x3072_S3072x1024_S8192x1024_1_0_0_1_n_n_wf : DotDims.WF S8192x3072 S3072x1024 S8192x1024 [1] [0] [0] [1] [] []
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []

variable [Facts₀]

def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Glue.lean ====
/-
  The host side of the idealized kernel program, read off the fold of buffer contents through its seven segments.
  Before the left region the host rounds the four left weight matrices to bf16 and reshapes the four left bias rows to
  [1,1024]; between the regions it does the same for the right network's weights and biases; after the right region
  it selects, row by row, the left result where the branch word is 0, the right result where it is 1, and zero
  otherwise.  No region and no host operation writes an argument array, and the right region does not write the left
  result, so each buffer a later segment reads holds what the earlier segment left there.
-/
import proofs.«161753_j35167192220017_1_alg».proof.Proof.Gen.KernelIdeal.Frame
import Idealize.ShloMosaic.Lib.StableHlo.Run

noncomputable section

namespace Cert.KernelValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations leaves a buffer it does not write as it was: each operation writes one buffer, and it
    is another one. -/
macro "not_written" : tactic =>
  `(tactic| exact StableHlo.after_of_forall_not_mem _ _ (List.forall_iff_forall_mem.mp (by
      simp only [hostOps0, hostOps1, hostOps2, hostOps2_1, hostOps2_2, List.Forall, StableHlo.nullary_writes, StableHlo.unary_writes,
        StableHlo.binary_writes, StableHlo.ternary_writes, StableHlo.reshape_writes, Finset.mem_singleton]
      repeat' apply And.intro
      all_goals exact StableHlo.devRef_ne_of_ne (by decide))))

/-! ## The arguments as the regions find them -/

/-- The side condition of `not_written` as a term: no operation of the stretch writes the buffer. -/
macro "no_writer" : tactic =>
  `(tactic| exact List.forall_iff_forall_mem.mp (by
      simp only [hostOps0, hostOps1, hostOps2, hostOps2_1, hostOps2_2, List.Forall, StableHlo.nullary_writes, StableHlo.unary_writes,
        StableHlo.binary_writes, StableHlo.ternary_writes, StableHlo.reshape_writes, Finset.mem_singleton]
      repeat' apply And.intro
      all_goals exact StableHlo.devRef_ne_of_ne (by decide)))

/-- A buffer that is no array of the left region's windows and that the first stretch does not write holds, when the
    left region has run, what it held at launch. -/
theorem W2_untouched (c : Dev nD) (b : Ref sig .tc) (hw : ∀ w, Pipeline.arrRef spec0 w ≠ b)
    (h0 : ∀ op ∈ (hostOps0 : List (HloOp τ sig (Elt F))), Proc.devRef .tc b ∉ op.writes) :
    W2 m ρ c (Proc.devRef .tc b) = m ((c : Thread nD τ).loc b) :=
  (W2_of_ne m ρ c b hw).trans (StableHlo.after_of_forall_not_mem _ _ h0)

/-- An input array of the left region that the first stretch does not write holds, when the left region has run, what it
    held at launch: an input window only reads its array. -/
theorem W2_input (c : Dev nD) (w : Fin cfg0.W) (hin : (cfg0.win w).isOut = false)
    (h0 : ∀ op ∈ (hostOps0 : List (HloOp τ sig (Elt F))), Proc.devRef .tc (Pipeline.arrRef spec0 w) ∉ op.writes) :
    W2 m ρ c (Proc.devRef .tc (Pipeline.arrRef spec0 w)) = m ((c : Thread nD τ).loc (Pipeline.arrRef spec0 w)) :=
  ((W2_arr m ρ c w).trans (((dat0 (V1 m ρ) c).arrAt_in w hin _).trans (A_eq0 (V1 m ρ) c w))).trans
    (StableHlo.after_of_forall_not_mem _ _ h0)

/-! ### What the left region finds: the activations as launched, the left weights rounded, the left biases as rows -/

theorem V1_arg0 (c : Dev nD) : V1 m ρ c main_arg0 = m ((c : Thread nD τ).loc main_arg0) := by unfold V1 W1; not_written
theorem V1_arg1 (c : Dev nD) : V1 m ρ c main_arg1 = m ((c : Thread nD τ).loc main_arg1) := by unfold V1 W1; not_written
theorem V1_arg2 (c : Dev nD) : V1 m ρ c main_arg2 = m ((c : Thread nD τ).loc main_arg2) := by unfold V1 W1; not_written
theorem V1_v0 (c : Dev nD) : V1 m ρ c main_v0 = truncf .bf16 (m ((c : Thread nD τ).loc main_arg5)) bitsLt_bf16_f32 := by
  unfold V1 W1 hostOps0; after_results
theorem V1_v2 (c : Dev nD) : V1 m ρ c main_v2 = truncf .bf16 (m ((c : Thread nD τ).loc main_arg7)) bitsLt_bf16_f32 := by
  unfold V1 W1 hostOps0; after_results
theorem V1_v4 (c : Dev nD) : V1 m ρ c main_v4 = truncf .bf16 (m ((c : Thread nD τ).loc main_arg9)) bitsLt_bf16_f32 := by
  unfold V1 W1 hostOps0; after_results
theorem V1_v6 (c : Dev nD) : V1 m ρ c main_v6 = truncf .bf16 (m ((c : Thread nD τ).loc main_arg11)) bitsLt_bf16_f32 := by
  unfold V1 W1 hostOps0; after_results
theorem V1_v1 (c : Dev nD) : V1 m ρ c main_v1 = shapeCast S1x1024 (m ((c : Thread nD τ).loc main_arg6)) shapeCasts_S1024_S1x1024 := by
  unfold V1 W1 hostOps0; after_results; rfl
theorem V1_v3 (c : Dev nD) : V1 m ρ c main_v3 = shapeCast S1x1024 (m ((c : Thread nD τ).loc main_arg8)) shapeCasts_S1024_S1x1024 := by
  unfold V1 W1 hostOps0; after_results; rfl
theorem V1_v5 (c : Dev nD) : V1 m ρ c main_v5 = shapeCast S1x1024 (m ((c : Thread nD τ).loc main_arg10)) shapeCasts_S1024_S1x1024 := by
  unfold V1 W1 hostOps0; after_results; rfl
theorem V1_v7 (c : Dev nD) : V1 m ρ c main_v7 = shapeCast S1x1024 (m ((c : Thread nD τ).loc main_arg12)) shapeCasts_S1024_S1x1024 := by
  unfold V1 W1 hostOps0; after_results; rfl

/-! ### What the right region finds: the activations as launched, the right weights rounded, the right biases as rows -/

theorem V3_arg0 (c : Dev nD) : V3 m ρ c main_arg0 = m ((c : Thread nD τ).loc main_arg0) :=
  Eq.trans (b := W2 m ρ c (Proc.devRef .tc main_arg0)) (by unfold V3 W3; not_written) (W2_input m ρ c 0 rfl (by no_writer))
theorem V3_arg1 (c : Dev nD) : V3 m ρ c main_arg1 = m ((c : Thread nD τ).loc main_arg1) :=
  Eq.trans (b := W2 m ρ c (Proc.devRef .tc main_arg1)) (by unfold V3 W3; not_written) (W2_input m ρ c 1 rfl (by no_writer))
theorem V3_arg2 (c : Dev nD) : V3 m ρ c main_arg2 = m ((c : Thread nD τ).loc main_arg2) :=
  Eq.trans (b := W2 m ρ c (Proc.devRef .tc main_arg2)) (by unfold V3 W3; not_written) (W2_input m ρ c 2 rfl (by no_writer))
theorem V3_arg3 (c : Dev nD) : V3 m ρ c main_arg3 = m ((c : Thread nD τ).loc main_arg3) :=
  Eq.trans (b := W2 m ρ c (Proc.devRef .tc main_arg3)) (by unfold V3 W3; not_written) (W2_untouched m ρ c main_arg3 (by decide) (by no_writer))
theorem V3_v9 (c : Dev nD) : V3 m ρ c main_v9 = truncf .bf16 (m ((c : Thread nD τ).loc main_arg13)) bitsLt_bf16_f32 := by
  rw [← W2_untouched m ρ c main_arg13 (by decide) (by no_writer)]; unfold V3 W3 hostOps1; after_results
theorem V3_v11 (c : Dev nD) : V3 m ρ c main_v11 = truncf .bf16 (m ((c : Thread nD τ).loc main_arg15)) bitsLt_bf16_f32 := by
  rw [← W2_untouched m ρ c main_arg15 (by decide) (by no_writer)]; unfold V3 W3 hostOps1; after_results
theorem V3_v13 (c : Dev nD) : V3 m ρ c main_v13 = truncf .bf16 (m ((c : Thread nD τ).loc main_arg17)) bitsLt_bf16_f32 := by
  rw [← W2_untouched m ρ c main_arg17 (by decide) (by no_writer)]; unfold V3 W3 hostOps1; after_results
theorem V3_v15 (c : Dev nD) : V3 m ρ c main_v15 = truncf .bf16 (m ((c : Thread nD τ).loc main_arg19)) bitsLt_bf16_f32 := by
  rw [← W2_untouched m ρ c main_arg19 (by decide) (by no_writer)]; unfold V3 W3 hostOps1; after_results
theorem V3_v10 (c : Dev nD) : V3 m ρ c main_v10 = shapeCast S1x1024 (m ((c : Thread nD τ).loc main_arg14)) shapeCasts_S1024_S1x1024 := by
  rw [← W2_untouched m ρ c main_arg14 (by decide) (by no_writer)]; unfold V3 W3 hostOps1; after_results; rfl
theorem V3_v12 (c : Dev nD) : V3 m ρ c main_v12 = shapeCast S1x1024 (m ((c : Thread nD τ).loc main_arg16)) shapeCasts_S1024_S1x1024 := by
  rw [← W2_untouched m ρ c main_arg16 (by decide) (by no_writer)]; unfold V3 W3 hostOps1; after_results; rfl
theorem V3_v14 (c : Dev nD) : V3 m ρ c main_v14 = shapeCast S1x1024 (m ((c : Thread nD τ).loc main_arg18)) shapeCasts_S1024_S1x1024 := by
  rw [← W2_untouched m ρ c main_arg18 (by decide) (by no_writer)]; unfold V3 W3 hostOps1; after_results; rfl
theorem V3_v16 (c : Dev nD) : V3 m ρ c main_v16 = shapeCast S1x1024 (m ((c : Thread nD τ).loc main_arg20)) shapeCasts_S1024_S1x1024 := by
  rw [← W2_untouched m ρ c main_arg20 (by decide) (by no_writer)]; unfold V3 W3 hostOps1; after_results; rfl

/-! ### What the last stretches find: the branch words as launched, and the two regions' results where they left them -/

theorem W4_arg4 (c : Dev nD) : W4 m ρ c (Proc.devRef .tc main_arg4) = m ((c : Thread nD τ).loc main_arg4) :=
  (W4_of_ne m ρ c main_arg4 (by decide)).trans
    (Eq.trans (b := W2 m ρ c (Proc.devRef .tc main_arg4)) (by unfold W3; not_written) (W2_untouched m ρ c main_arg4 (by decide) (by no_writer)))
theorem W4_left (c : Dev nD) : W4 m ρ c (Proc.devRef .tc main_v8) = (dat0 (V1 m ρ) c).arrAt 11 cfg0.N :=
  (W4_of_ne m ρ c main_v8 (by decide)).trans
    (Eq.trans (b := W2 m ρ c (Proc.devRef .tc main_v8)) (by unfold W3; not_written) (W2_arr m ρ c 11))
theorem W4_right (c : Dev nD) : W4 m ρ c (Proc.devRef .tc main_v17) = (dat1 (V3 m ρ) c).arrAt 12 cfg1.N :=
  W4_arr m ρ c 12

/-! ## The result buffer: the row-wise selection -/

/-- The selection the program ends with, as a function of the branch words and the two regions' results: row by row the
    left result where the branch word is 0, else the right result where it is 1, else zero. -/
def pick (a4 : (⟨S8192, .i32⟩ : BufTy).Contents (Elt F)) (L R : (⟨S8192x1024, .f32⟩ : BufTy).Contents (Elt F)) :
    (⟨S8192x1024, .f32⟩ : BufTy).Contents (Elt F) :=
  select (broadcastInDim S8192x1024 ![0, 1] bcast_S8192x1_S8192x1024_0_1
      (cmpi .eq (broadcastInDim S8192x1 ![0] bcast_S8192_S8192x1_0 a4) (broadcastInDim S8192x1 ![] bcast_S_S8192x1 (constantI S_ 32 0#32))))
    L
    (select (broadcastInDim S8192x1024 ![0, 1] bcast_S8192x1_S8192x1024_0_1
        (cmpi .eq (broadcastInDim S8192x1 ![0] bcast_S8192_S8192x1_0 a4) (broadcastInDim S8192x1 ![] bcast_S_S8192x1 (constantI S_ 32 1#32))))
      R
      (broadcastInDim S8192x1024 ![] bcast_S_S8192x1024 (constant (F := F) S_ .f32 0x00000000#32)))

set_option maxHeartbeats 1000000 in
/-- The result buffer at the last boundary is the selection over what the right region's exit holds at the branch words
    and at the two regions' output buffers. -/
theorem W7_result (c : Dev nD) :
    W7 m ρ c (Proc.devRef .tc main_v25)
      = pick (W4 m ρ c (Proc.devRef .tc main_arg4)) (W4 m ρ c (Proc.devRef .tc main_v8)) (W4 m ρ c (Proc.devRef .tc main_v17)) := by
  suffices h : ∀ X, X = pick (W4 m ρ c (Proc.devRef .tc main_arg4)) (W4 m ρ c (Proc.devRef .tc main_v8)) (W4 m ρ c (Proc.devRef .tc main_v17)) →
      W7 m ρ c (Proc.devRef .tc main_v25) = X from h _ rfl
  intro X hX
  unfold W7 hostOps2_2
  after_results
  rw [hX]
  generalize W4 m ρ c (Proc.devRef .tc main_arg4) = a4
  generalize W4 m ρ c (Proc.devRef .tc main_v8) = L
  generalize W4 m ρ c (Proc.devRef .tc main_v17) = R
  unfold pick
  rfl

/-- The result buffer at the last boundary: the selection over the branch words as launched and the two regions' output
    arrays. -/
theorem kernel_result (c : Dev nD) :
    W7 m ρ c (Proc.devRef .tc main_v25)
      = pick (m ((c : Thread nD τ).loc main_arg4)) ((dat0 (V1 m ρ) c).arrAt 11 cfg0.N) ((dat1 (V3 m ρ) c).arrAt 12 cfg1.N) :=
  (W7_result m ρ c).trans (by rw [W4_arg4, W4_left, W4_right])

end Cert.KernelValue

end
-- ==== Proof.Spec.lean ====
/-
  The function both programs compute, written once over plain finite index types and the extended reals.

  A "gated layer" takes a row vector x of length K, two weight matrices of K rows and 1024 columns and two bias
  rows, and returns, at column q,
      tanh (Σ_k x k · wh k q + bh q) · logistic (Σ_k x k · wg k q + bg q).
  The left network applies one gated layer to the 3072-long row (hidden | context | label) and a second one to its
  1024-long result; the right network applies a first layer of the same form and a second one to the 2048-long
  row (first layer's result | left embedding).  Every entry of a result row depends on that row of the inputs only,
  which is why a program that works on blocks of rows and one that works on whole arrays compute the same array.
  No algebraic law relates the two programs beyond this: the sums run over the same index set in both.
-/
import Idealize.ShloMosaic.PureOps.Ideal
import Idealize.ShloMosaic.Lib.IdealHost
import Idealize.ShloMosaic.Lib.ValueIdx

noncomputable section

namespace Cert.Spec

open Idealize.ShloMosaic

/-- Three rows of length 1024 laid end to end. -/
def row3 (a b c : Fin 1024 → EReal) (k : Fin 3072) : EReal :=
  if h : k.val < 1024 then a ⟨k.val, h⟩
  else if h2 : k.val < 2048 then b ⟨k.val - 1024, by omega⟩
  else c ⟨k.val - 2048, by omega⟩

/-- Two rows of length 1024 laid end to end. -/
def row2 (a b : Fin 1024 → EReal) (k : Fin 2048) : EReal :=
  if h : k.val < 1024 then a ⟨k.val, h⟩ else b ⟨k.val - 1024, by omega⟩

/-- One gated layer on a row: the product of the hyperbolic tangent of one affine form of the row and the
    logistic function of another. -/
def gate {K : Nat} (x : Fin K → EReal) (wh : Fin K → Fin 1024 → EReal) (bh : Fin 1024 → EReal)
    (wg : Fin K → Fin 1024 → EReal) (bg : Fin 1024 → EReal) (q : Fin 1024) : EReal :=
  Ideal.tanh ((∑ k : Fin K, x k * wh k q) + bh q) * Ideal.logistic ((∑ k : Fin K, x k * wg k q) + bg q)

/-- The left network on one row: two gated layers. -/
def leftNet (h ctx lab : Fin 1024 → EReal)
    (wh1 : Fin 3072 → Fin 1024 → EReal) (bh1 : Fin 1024 → EReal) (wg1 : Fin 3072 → Fin 1024 → EReal) (bg1 : Fin 1024 → EReal)
    (wh2 : Fin 1024 → Fin 1024 → EReal) (bh2 : Fin 1024 → EReal) (wg2 : Fin 1024 → Fin 1024 → EReal) (bg2 : Fin 1024 → EReal)
    (q : Fin 1024) : EReal :=
  gate (gate (row3 h ctx lab) wh1 bh1 wg1 bg1) wh2 bh2 wg2 bg2 q

/-- The right network on one row: a gated layer, its result joined with the left embedding's row, a second gated layer. -/
def rightNet (h ctx lab left : Fin 1024 → EReal)
    (wh1 : Fin 3072 → Fin 1024 → EReal) (bh1 : Fin 1024 → EReal) (wg1 : Fin 3072 → Fin 1024 → EReal) (bg1 : Fin 1024 → EReal)
    (wh2 : Fin 2048 → Fin 1024 → EReal) (bh2 : Fin 1024 → EReal) (wg2 : Fin 2048 → Fin 1024 → EReal) (bg2 : Fin 1024 → EReal)
    (q : Fin 1024) : EReal :=
  gate (row2 (gate (row3 h ctx lab) wh1 bh1 wg1 bg1) left) wh2 bh2 wg2 bg2 q

/-- The logistic function spelt as a quotient: one over one plus the exponential of the negated argument, the two
    ones given by the single-precision pattern of 1.  It holds at every extended real, the infinities included, because
    the logistic function is defined by this very quotient. -/
theorem logistic_as_quotient (x : EReal) :
    Ideal.div (Ideal.ofBits .f32 0x3F800000#32) (Ideal.ofBits .f32 0x3F800000#32 + Ideal.exp (-x)) = Ideal.logistic x := by
  rw [Ideal.ofBits_one_f32]; rfl

end Cert.Spec

end
-- ==== Proof.BodyGate.lean ====
import proofs.«161753_j35167192220017_1_alg».proof.Proof.Gen.KernelIdeal.Frame
import proofs.«161753_j35167192220017_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue.Gate

open Idealize.ShloMosaic Idealize.ShloMosaic.TcCoe Idealize.ShloMosaic.ValueIdx Idealize.SL.Sem Cert.KernelIdeal Cert.KernelIdeal.Facts₀

/-- A product of a [128,3072] block by a [3072,1024] block into a zero accumulator, read at row p and column q: the sum over
    the 3072 positions of the row's entries times the column's. -/
theorem matmul3072_apply {φ₁ φ₂ : FTy} (lhs : FVec Ideal S128x3072 φ₁) (rhs : FVec Ideal S3072x1024 φ₂) (p : Fin 128) (q : Fin 1024) :
    matmul dot_S128x3072_S3072x1024_S128x1024_1_0_0_1_n_n none lhs rhs (constant (F := Ideal) S128x1024 .f32 0x00000000#32) (ix2 p q)
      = ∑ k : Fin 3072, lhs (ix2 p k) * rhs (ix2 k q) := by
  simp only [matmul]
  rw [Ideal.matmul_constant_zero_apply, ← Equiv.sum_comp (ValueIdx.contrEquiv1 dot_S128x3072_S3072x1024_S128x1024_1_0_0_1_n_n 3072 rfl rfl).symm]
  refine Finset.sum_congr rfl fun k _ => ?_
  have hk := ValueIdx.contrEquiv1_symm_val dot_S128x3072_S3072x1024_S128x1024_1_0_0_1_n_n 3072 rfl rfl k
  have el : dot_S128x3072_S3072x1024_S128x1024_1_0_0_1_n_n.lhsIdx (ix2 p q) ((ValueIdx.contrEquiv1 dot_S128x3072_S3072x1024_S128x1024_1_0_0_1_n_n 3072 rfl rfl).symm k) = ix2 p k := funext fun a => Fin.ext (by
    match a with
    | ⟨0, _⟩ =>
      show (dot_S128x3072_S3072x1024_S128x1024_1_0_0_1_n_n.lhsIdx (ix2 p q) _ 0).val = p.val
      unfold DotDims.lhsIdx
      rw [dif_neg (show ¬(0 : Fin S128x3072.rank) ∈ dot_S128x3072_S3072x1024_S128x1024_1_0_0_1_n_n.lhsBatch by decide), dif_pos (show (0 : Fin S128x3072.rank) ∈ dot_S128x3072_S3072x1024_S128x1024_1_0_0_1_n_n.lhsNonContracting by decide)]
      rfl
    | ⟨1, _⟩ => exact (dot_S128x3072_S3072x1024_S128x1024_1_0_0_1_n_n.lhsIdx_val_of_single rfl (ix2 p q) _).trans hk)
  have er : dot_S128x3072_S3072x1024_S128x1024_1_0_0_1_n_n.rhsIdx (ix2 p q) ((ValueIdx.contrEquiv1 dot_S128x3072_S3072x1024_S128x1024_1_0_0_1_n_n 3072 rfl rfl).symm k) = ix2 k q := funext fun a => Fin.ext (by
    match a with
    | ⟨0, _⟩ => exact (dot_S128x3072_S3072x1024_S128x1024_1_0_0_1_n_n.rhsIdx_val_of_single rfl (ix2 p q) _).trans hk
    | ⟨1, _⟩ =>
      show (dot_S128x3072_S3072x1024_S128x1024_1_0_0_1_n_n.rhsIdx (ix2 p q) _ 1).val = q.val
      unfold DotDims.rhsIdx
      rw [dif_neg (show ¬(1 : Fin S3072x1024.rank) ∈ dot_S128x3072_S3072x1024_S128x1024_1_0_0_1_n_n.rhsBatch by decide), dif_pos (show (1 : Fin S3072x1024.rank) ∈ dot_S128x3072_S3072x1024_S128x1024_1_0_0_1_n_n.rhsNonContracting by decide)]
      rfl)
  rw [el, er]

/-- A product of a [128,1024] block by a [1024,1024] block into a zero accumulator, read at row p and column q: the sum over
    the 1024 positions of the row's entries times the column's. -/
theorem matmul1024_apply {φ₁ φ₂ : FTy} (lhs : FVec Ideal S128x1024 φ₁) (rhs : FVec Ideal S1024x1024 φ₂) (p : Fin 128) (q : Fin 1024) :
    matmul dot_S128x1024_S1024x1024_S128x1024_1_0_0_1_n_n none lhs rhs (constant (F := Ideal) S128x1024 .f32 0x00000000#32) (ix2 p q)
      = ∑ k : Fin 1024, lhs (ix2 p k) * rhs (ix2 k q) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p q) ((ValueIdx.contrEquiv1 dot_S128x1024_S1024x1024_S128x1024_1_0_0_1_n_n 1024 rfl rfl).symm k) = ix2 p k := funext fun a => Fin.ext (by
    match a with
    | ⟨0, _⟩ =>
      show (dot_S128x1024_S1024x1024_S128x1024_1_0_0_1_n_n.lhsIdx (ix2 p q) _ 0).val = p.val
      unfold DotDims.lhsIdx
      rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
      rfl
    | ⟨1, _⟩ => exact (dot_S128x1024_S1024x1024_S128x1024_1_0_0_1_n_n.lhsIdx_val_of_single rfl (ix2 p q) _).trans hk)
  have er : dot_S128x1024_S1024x1024_S128x1024_1_0_0_1_n_n.rhsIdx (ix2 p q) ((ValueIdx.contrEquiv1 dot_S128x1024_S1024x1024_S128x1024_1_0_0_1_n_n 1024 rfl rfl).symm k) = ix2 k q := funext fun a => Fin.ext (by
    match a with
    | ⟨0, _⟩ => exact (dot_S128x1024_S1024x1024_S128x1024_1_0_0_1_n_n.rhsIdx_val_of_single rfl (ix2 p q) _).trans hk
    | ⟨1, _⟩ =>
      show (dot_S128x1024_S1024x1024_S128x1024_1_0_0_1_n_n.rhsIdx (ix2 p q) _ 1).val = q.val
      unfold DotDims.rhsIdx
      rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
      rfl)
  rw [el, er]

/-- A product of a [128,2048] block by a [2048,1024] block into a zero accumulator, read at row p and column q: the sum over
    the 2048 positions of the row's entries times the column's. -/
theorem matmul2048_apply {φ₁ φ₂ : FTy} (lhs : FVec Ideal S128x2048 φ₁) (rhs : FVec Ideal S2048x1024 φ₂) (p : Fin 128) (q : Fin 1024) :
    matmul dot_S128x2048_S2048x1024_S128x1024_1_0_0_1_n_n none lhs rhs (constant (F := Ideal) S128x1024 .f32 0x00000000#32) (ix2 p q)
      = ∑ k : Fin 2048, lhs (ix2 p k) * rhs (ix2 k q) := by
  simp only [matmul]
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p q) ((ValueIdx.contrEquiv1 dot_S128x2048_S2048x1024_S128x1024_1_0_0_1_n_n 2048 rfl rfl).symm k) = ix2 p k := funext fun a => Fin.ext (by
    match a with
    | ⟨0, _⟩ =>
      show (dot_S128x2048_S2048x1024_S128x1024_1_0_0_1_n_n.lhsIdx (ix2 p q) _ 0).val = p.val
      unfold DotDims.lhsIdx
      rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
      rfl
    | ⟨1, _⟩ => exact (dot_S128x2048_S2048x1024_S128x1024_1_0_0_1_n_n.lhsIdx_val_of_single rfl (ix2 p q) _).trans hk)
  have er : dot_S128x2048_S2048x1024_S128x1024_1_0_0_1_n_n.rhsIdx (ix2 p q) ((ValueIdx.contrEquiv1 dot_S128x2048_S2048x1024_S128x1024_1_0_0_1_n_n 2048 rfl rfl).symm k) = ix2 k q := funext fun a => Fin.ext (by
    match a with
    | ⟨0, _⟩ => exact (dot_S128x2048_S2048x1024_S128x1024_1_0_0_1_n_n.rhsIdx_val_of_single rfl (ix2 p q) _).trans hk
    | ⟨1, _⟩ =>
      show (dot_S128x2048_S2048x1024_S128x1024_1_0_0_1_n_n.rhsIdx (ix2 p q) _ 1).val = q.val
      unfold DotDims.rhsIdx
      rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
      rfl)
  rw [el, er]

/-- Three [128,1024] blocks joined along the columns, read at row p and column k: the row made of the three rows laid end to end. -/
theorem cat3_apply (x0 x1 x2 : S128x1024.Idx → EReal) (p : Fin 128) (k : Fin 3072) :
    concatenate S128x3072 1 [⟨S128x1024, x0⟩, ⟨S128x1024, x1⟩, ⟨S128x1024, x2⟩] concatenates_S128x1024_S128x1024_S128x1024_S128x3072_d1 (ix2 p k)
      = Spec.row3 (fun k => x0 (ix2 p k)) (fun k => x1 (ix2 p k)) (fun k => x2 (ix2 p k)) k := by
  unfold Spec.row3
  by_cases h : k.val < 1024
  · rw [dif_pos h]
    exact concatenate_apply_piece (1 : Fin S128x3072.rank) _ _ (ix2 p k) 0 (by show (0 : Nat) < 3; omega) S128x1024 x0 rfl rfl 0 rfl (ix2 p ⟨k.val, h⟩)
      (fun b hb => by
        match b with
        | ⟨0, _⟩ => rfl
        | ⟨1, _⟩ => exact absurd (Fin.ext rfl) hb)
      (Nat.zero_add _)
  · rw [dif_neg h]
    by_cases h2 : k.val < 2048
    · rw [dif_pos h2]
      exact concatenate_apply_piece (1 : Fin S128x3072.rank) _ _ (ix2 p k) 1 (by show (1 : Nat) < 3; omega) S128x1024 x1 rfl rfl 1024 rfl (ix2 p ⟨k.val - 1024, by omega⟩)
        (fun b hb => by
          match b with
          | ⟨0, _⟩ => rfl
          | ⟨1, _⟩ => exact absurd (Fin.ext rfl) hb)
        (by show 1024 + (k.val - 1024) = k.val; omega)
    · rw [dif_neg h2]
      exact concatenate_apply_piece (1 : Fin S128x3072.rank) _ _ (ix2 p k) 2 (by show (2 : Nat) < 3; omega) S128x1024 x2 rfl rfl 2048 rfl (ix2 p ⟨k.val - 2048, by have := k.isLt; omega⟩)
        (fun b hb => by
          match b with
          | ⟨0, _⟩ => rfl
          | ⟨1, _⟩ => exact absurd (Fin.ext rfl) hb)
        (by show 2048 + (k.val - 2048) = k.val; omega)

/-- Two [128,1024] blocks joined along the columns, read at row p and column k: the two rows laid end to end. -/
theorem cat2_apply (x0 x1 : S128x1024.Idx → EReal) (p : Fin 128) (k : Fin 2048) :
    concatenate S128x2048 1 [⟨S128x1024, x0⟩, ⟨S128x1024, x1⟩] concatenates_S128x1024_S128x1024_S128x2048_d1 (ix2 p k)
      = Spec.row2 (fun k => x0 (ix2 p k)) (fun k => x1 (ix2 p k)) k := by
  unfold Spec.row2
  by_cases h : k.val < 1024
  · rw [dif_pos h]
    exact concatenate_pair_apply_left (1 : Fin S128x2048.rank) x0 x1 _ (ix2 p k) rfl (ix2 p ⟨k.val, h⟩)
      (fun b => by
        match b with
        | ⟨0, _⟩ => rfl
        | ⟨1, _⟩ => rfl)
  · rw [dif_neg h]
    exact concatenate_pair_apply_right (1 : Fin S128x2048.rank) x0 x1 _ (ix2 p k) rfl rfl (ix2 p ⟨k.val - 1024, by have := k.isLt; omega⟩)
      (fun b hb => by
        match b with
        | ⟨0, _⟩ => rfl
        | ⟨1, _⟩ => exact absurd (Fin.ext rfl) hb)
      (by show (k.val - 1024) + 1024 = k.val; omega)

/-- A [1,1024] row cast to its own shape and broadcast down 128 rows, read at row p and column q: the row's entry q. -/
theorem bias_apply (v : S1x1024.Idx → EReal) (p : Fin 128) (q : Fin 1024) :
    broadcastTo S128x1024 (shapeCast S1x1024 v shapeCasts_S1x1024_S1x1024) broadcasts_S1x1024_S128x1024 (ix2 p q) = v (ix2 (0 : Fin 1) q) := by
  rw [shapeCast_self]
  exact broadcastTo_apply v _ (ix2 p q) (ix2 (0 : Fin 1) q) (fun a => by
    match a with
    | ⟨0, _⟩ => rfl
    | ⟨1, _⟩ => rfl)

/-- One gated layer on a [128,3072] block, as the kernels spell it (two products into zero accumulators, a bias row added to each,
    the hyperbolic tangent of one times the logistic function of the other), read at row p and column q: the gated layer of row p. -/
theorem gate3072 {φ : FTy} (lhs : FVec Ideal S128x3072 φ) (wh wg : FVec Ideal S3072x1024 .bf16) (bh bg : FVec Ideal S1x1024 .f32)
    (p : Fin 128) (q : Fin 1024) (x : Fin 3072 → EReal) (hx : ∀ k, lhs (ix2 p k) = x k) :
    mulf (tanh (addf (matmul dot_S128x3072_S3072x1024_S128x1024_1_0_0_1_n_n none lhs (shapeCast S3072x1024 wh shapeCasts_S3072x1024_S3072x1024) (constant (F := Ideal) S128x1024 .f32 0x00000000#32))
                     (broadcastTo S128x1024 (shapeCast S1x1024 bh shapeCasts_S1x1024_S1x1024) broadcasts_S1x1024_S128x1024)))
         (logistic (addf (matmul dot_S128x3072_S3072x1024_S128x1024_1_0_0_1_n_n none lhs (shapeCast S3072x1024 wg shapeCasts_S3072x1024_S3072x1024) (constant (F := Ideal) S128x1024 .f32 0x00000000#32))
                     (broadcastTo S128x1024 (shapeCast S1x1024 bg shapeCasts_S1x1024_S1x1024) broadcasts_S1x1024_S128x1024))) (ix2 p q)
      = Spec.gate x (fun k n => wh (ix2 k n)) (fun n => bh (ix2 (0 : Fin 1) n)) (fun k n => wg (ix2 k n)) (fun n => bg (ix2 (0 : Fin 1) n)) q := by
  unfold Spec.gate
  rw [shapeCast_self wh, shapeCast_self wg]
  refine (mulf_apply _ _ _).trans ?_
  refine congrArg₂ (· * ·) (congrArg Ideal.tanh ?_) (congrArg Ideal.logistic ?_)
  · refine (addf_apply _ _ _).trans ?_
    rw [matmul3072_apply, bias_apply]
    exact congrArg (· + bh (ix2 (0 : Fin 1) q)) (Finset.sum_congr rfl fun k _ => by rw [hx k])
  · refine (addf_apply _ _ _).trans ?_
    rw [matmul3072_apply, bias_apply]
    exact congrArg (· + bg (ix2 (0 : Fin 1) q)) (Finset.sum_congr rfl fun k _ => by rw [hx k])

/-- One gated layer on a [128,1024] block, as the kernels spell it (two products into zero accumulators, a bias row added to each,
    the hyperbolic tangent of one times the logistic function of the other), read at row p and column q: the gated layer of row p. -/
theorem gate1024 {φ : FTy} (lhs : FVec Ideal S128x1024 φ) (wh wg : FVec Ideal S1024x1024 .bf16) (bh bg : FVec Ideal S1x1024 .f32)
    (p : Fin 128) (q : Fin 1024) (x : Fin 1024 → EReal) (hx : ∀ k, lhs (ix2 p k) = x k) :
    mulf (tanh (addf (matmul dot_S128x1024_S1024x1024_S128x1024_1_0_0_1_n_n none lhs (shapeCast S1024x1024 wh shapeCasts_S1024x1024_S1024x1024) (constant (F := Ideal) S128x1024 .f32 0x00000000#32))
                     (broadcastTo S128x1024 (shapeCast S1x1024 bh shapeCasts_S1x1024_S1x1024) broadcasts_S1x1024_S128x1024)))
         (logistic (addf (matmul dot_S128x1024_S1024x1024_S128x1024_1_0_0_1_n_n none lhs (shapeCast S1024x1024 wg shapeCasts_S1024x1024_S1024x1024) (constant (F := Ideal) S128x1024 .f32 0x00000000#32))
                     (broadcastTo S128x1024 (shapeCast S1x1024 bg shapeCasts_S1x1024_S1x1024) broadcasts_S1x1024_S128x1024))) (ix2 p q)
      = Spec.gate x (fun k n => wh (ix2 k n)) (fun n => bh (ix2 (0 : Fin 1) n)) (fun k n => wg (ix2 k n)) (fun n => bg (ix2 (0 : Fin 1) n)) q := by
  unfold Spec.gate
  rw [shapeCast_self wh, shapeCast_self wg]
  refine (mulf_apply _ _ _).trans ?_
  refine congrArg₂ (· * ·) (congrArg Ideal.tanh ?_) (congrArg Ideal.logistic ?_)
  · refine (addf_apply _ _ _).trans ?_
    rw [matmul1024_apply, bias_apply]
    exact congrArg (· + bh (ix2 (0 : Fin 1) q)) (Finset.sum_congr rfl fun k _ => by rw [hx k])
  · refine (addf_apply _ _ _).trans ?_
    rw [matmul1024_apply, bias_apply]
    exact congrArg (· + bg (ix2 (0 : Fin 1) q)) (Finset.sum_congr rfl fun k _ => by rw [hx k])

/-- One gated layer on a [128,2048] block, as the kernels spell it (two products into zero accumulators, a bias row added to each,
    the hyperbolic tangent of one times the logistic function of the other), read at row p and column q: the gated layer of row p. -/
theorem gate2048 {φ : FTy} (lhs : FVec Ideal S128x2048 φ) (wh wg : FVec Ideal S2048x1024 .bf16) (bh bg : FVec Ideal S1x1024 .f32)
    (p : Fin 128) (q : Fin 1024) (x : Fin 2048 → EReal) (hx : ∀ k, lhs (ix2 p k) = x k) :
    mulf (tanh (addf (matmul dot_S128x2048_S2048x1024_S128x1024_1_0_0_1_n_n none lhs (shapeCast S2048x1024 wh shapeCasts_S2048x1024_S2048x1024) (constant (F := Ideal) S128x1024 .f32 0x00000000#32))
                     (broadcastTo S128x1024 (shapeCast S1x1024 bh shapeCasts_S1x1024_S1x1024) broadcasts_S1x1024_S128x1024)))
         (logistic (addf (matmul dot_S128x2048_S2048x1024_S128x1024_1_0_0_1_n_n none lhs (shapeCast S2048x1024 wg shapeCasts_S2048x1024_S2048x1024) (constant (F := Ideal) S128x1024 .f32 0x00000000#32))
                     (broadcastTo S128x1024 (shapeCast S1x1024 bg shapeCasts_S1x1024_S1x1024) broadcasts_S1x1024_S128x1024))) (ix2 p q)
      = Spec.gate x (fun k n => wh (ix2 k n)) (fun n => bh (ix2 (0 : Fin 1) n)) (fun k n => wg (ix2 k n)) (fun n => bg (ix2 (0 : Fin 1) n)) q := by
  unfold Spec.gate
  rw [shapeCast_self wh, shapeCast_self wg]
  refine (mulf_apply _ _ _).trans ?_
  refine congrArg₂ (· * ·) (congrArg Ideal.tanh ?_) (congrArg Ideal.logistic ?_)
  · refine (addf_apply _ _ _).trans ?_
    rw [matmul2048_apply, bias_apply]
    exact congrArg (· + bh (ix2 (0 : Fin 1) q)) (Finset.sum_congr rfl fun k _ => by rw [hx k])
  · refine (addf_apply _ _ _).trans ?_
    rw [matmul2048_apply, bias_apply]
    exact congrArg (· + bg (ix2 (0 : Fin 1) q)) (Finset.sum_congr rfl fun k _ => by rw [hx k])

end Cert.KernelValue.Gate

end
-- ==== Proof.BodyL.lean ====
import proofs.«161753_j35167192220017_1_alg».proof.Proof.Gen.KernelIdeal.Frame
import proofs.«161753_j35167192220017_1_alg».proof.Proof.Spec
import proofs.«161753_j35167192220017_1_alg».proof.Proof.BodyGate
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.TcCoe Idealize.ShloMosaic.ValueIdx Idealize.SL.Sem Cert.KernelIdeal

/-- The left kernel's first layer (the three input blocks joined, one gated layer with the first pair of weights), read at row p
    and column k: the gated layer of the joined row p. -/
theorem left_first_layer (v0 v1 v2 : Vec Ideal S128x1024 .f32) (v5 : Vec Ideal S3072x1024 .bf16) (v8 : Vec Ideal S1x1024 .f32)
    (v12 : Vec Ideal S3072x1024 .bf16) (v15 : Vec Ideal S1x1024 .f32) (p : Fin 128) (k : Fin 1024) :
    Gen.k0_pay2 (F := Ideal) v0 v1 v2 v5 v8 v12 v15 (ix2 p k)
      = Spec.gate (Spec.row3 (fun k => v0 (ix2 p k)) (fun k => v1 (ix2 p k)) (fun k => v2 (ix2 p k)))
          (fun k n => v5 (ix2 k n)) (fun n => v8 (ix2 (0 : Fin 1) n)) (fun k n => v12 (ix2 k n)) (fun n => v15 (ix2 (0 : Fin 1) n)) k := by
  unfold Gen.k0_pay2
  refine (truncf_apply (s := S128x1024) (φ := .f32) (ψ := .bf16) _ _ (ix2 p k)).trans ?_
  exact Gate.gate3072 _ v5 v12 v8 v15 p k _
    (fun k' => (truncf_apply (s := S128x3072) (φ := .f32) (ψ := .bf16) _ _ (ix2 p k')).trans (Gate.cat3_apply v0 v1 v2 p k'))

/-- One entry of the block the left kernel stores at a grid point, as the left network of row `p` of its three
    input blocks and the whole weight and bias blocks. -/
theorem left_block (x0 x1 x2 : Vec Ideal S128x1024 .f32) (x3 : Vec Ideal S3072x1024 .bf16) (x4 : Vec Ideal S1x1024 .f32)
    (x5 : Vec Ideal S3072x1024 .bf16) (x6 : Vec Ideal S1x1024 .f32) (x7 : Vec Ideal S1024x1024 .bf16) (x8 : Vec Ideal S1x1024 .f32)
    (x9 : Vec Ideal S1024x1024 .bf16) (x10 : Vec Ideal S1x1024 .f32) (p : Fin 128) (q : Fin 1024) :
    Gen.out0_11 (F := Ideal) x0 x1 x2 x3 x4 x5 x6 x7 x8 x9 x10 (ix2 p q)
      = Spec.leftNet (fun k => x0 (ix2 p k)) (fun k => x1 (ix2 p k)) (fun k => x2 (ix2 p k))
          (fun k n => x3 (ix2 k n)) (fun n => x4 (ix2 (0 : Fin 1) n)) (fun k n => x5 (ix2 k n)) (fun n => x6 (ix2 (0 : Fin 1) n))
          (fun k n => x7 (ix2 k n)) (fun n => x8 (ix2 (0 : Fin 1) n)) (fun k n => x9 (ix2 k n)) (fun n => x10 (ix2 (0 : Fin 1) n)) q := by
  have hz : (![0, 0] : Fin 2 → Nat) = fun _ => 0 := funext fun a => by fin_cases a <;> rfl
  unfold Gen.out0_11
  rw [View.canon_unit_zero hz]
  simp only [View.ld_unit_zero (S := S128x1024) hz, View.ld_unit_zero (S := S3072x1024) hz, View.ld_unit_zero (S := S1x1024) hz,
    View.ld_unit_zero (S := S1024x1024) hz]
  unfold Gen.k0_pay1 Gen.k0_pay3 Gen.k0_pay4 Spec.leftNet
  exact Gate.gate1024 (Gen.k0_pay2 x0 x1 x2 x3 x4 x5 x6) x7 x9 x8 x10 p q _ (fun k => left_first_layer x0 x1 x2 x3 x4 x5 x6 p k)

end Cert.KernelValue

end
-- ==== Proof.Blocks0.lean ====
import proofs.«161753_j35167192220017_1_alg».proof.Proof.BodyL

noncomputable section

namespace Cert.KernelValue

open Idealize.ShloMosaic Idealize.ShloMosaic.TcCoe Idealize.ShloMosaic.ValueIdx Idealize.SL.Sem Cert.KernelIdeal

variable (V : (c : Dev nD) → (b : Ref sig .tc) → Buf (Elt Ideal) ((c : Thread nD τ).loc b))

/-! ## Where each window's block sits at a grid point -/

/-- The block index maps of the windows that move with the grid, over the 64 points: the three activation windows and
    the output window take block `t` of 128 rows (and the one block of 1024 columns) at point `t`. -/
theorem left_row_windows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The block index maps of the weight and bias windows, over the 64 points: always the one block that is the whole array. -/
theorem left_whole_windows : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## Each input block read where it sits in its array

  An element of a block sits in the array, on each axis, at block index × block size + its coordinate in the block. So row
  `p` of an activation block at point `t` is row `128 t + p` of the activation array, and a weight or bias block is its
  whole array. -/

/-- Row `p` of the hidden-state block at point `t` is row `128 t + p` of the hidden-state array. -/
theorem left_hidden_block (c : Dev nD) (t : Fin cfg0.N) (p : Fin 128) (k : Fin 1024) (r : Fin 8192)
    (hr : r.val = 128 * t.val + p.val) :
    (Gen.iblk0 V c 0 t : Vec Ideal S128x1024 .f32) (ix2 p k) = V c main_arg0 (ix2 r k) := by
  obtain ⟨h0, h1, -, -, -, -, -, -⟩ := left_row_windows t
  unfold Gen.iblk0
  rw [View.read_apply]
  show V c main_arg0 _ = V c main_arg0 _
  refine congrArg _ ?_
  funext a
  apply Fin.ext
  match a with
  | ⟨0, _⟩ => show win0_0.index t 0 * 128 + 1 * p.val = r.val; rw [h0, hr]; omega
  | ⟨1, _⟩ => show win0_0.index t 1 * 1024 + 1 * k.val = k.val; rw [h1]; omega

/-- Row `p` of the context block at point `t` is row `128 t + p` of the context array. -/
theorem left_context_block (c : Dev nD) (t : Fin cfg0.N) (p : Fin 128) (k : Fin 1024) (r : Fin 8192)
    (hr : r.val = 128 * t.val + p.val) :
    (Gen.iblk0 V c 1 t : Vec Ideal S128x1024 .f32) (ix2 p k) = V c main_arg1 (ix2 r k) := by
  obtain ⟨-, -, h0, h1, -, -, -, -⟩ := left_row_windows t
  unfold Gen.iblk0
  rw [View.read_apply]
  show V c main_arg1 _ = V c main_arg1 _
  refine congrArg _ ?_
  funext a
  apply Fin.ext
  match a with
  | ⟨0, _⟩ => show win0_1.index t 0 * 128 + 1 * p.val = r.val; rw [h0, hr]; omega
  | ⟨1, _⟩ => show win0_1.index t 1 * 1024 + 1 * k.val = k.val; rw [h1]; omega

/-- Row `p` of the label block at point `t` is row `128 t + p` of the label array. -/
theorem left_label_block (c : Dev nD) (t : Fin cfg0.N) (p : Fin 128) (k : Fin 1024) (r : Fin 8192)
    (hr : r.val = 128 * t.val + p.val) :
    (Gen.iblk0 V c 2 t : Vec Ideal S128x1024 .f32) (ix2 p k) = V c main_arg2 (ix2 r k) := by
  obtain ⟨-, -, -, -, h0, h1, -, -⟩ := left_row_windows t
  unfold Gen.iblk0
  rw [View.read_apply]
  show V c main_arg2 _ = V c main_arg2 _
  refine congrArg _ ?_
  funext a
  apply Fin.ext
  match a with
  | ⟨0, _⟩ => show win0_2.index t 0 * 128 + 1 * p.val = r.val; rw [h0, hr]; omega
  | ⟨1, _⟩ => show win0_2.index t 1 * 1024 + 1 * k.val = k.val; rw [h1]; omega

/-- The first layer's tanh-side weight block is the whole weight array. -/
theorem left_hidden_weights_1 (c : Dev nD) (t : Fin cfg0.N) (k : Fin 3072) (n : Fin 1024) :
    (Gen.iblk0 V c 3 t : Vec Ideal S3072x1024 .bf16) (ix2 k n) = V c main_v0 (ix2 k n) := by
  obtain ⟨h0, h1, -, -, -, -, -, -, -, -, -, -, -, -, -, -⟩ := left_whole_windows t
  unfold Gen.iblk0
  rw [View.read_apply]
  show V c main_v0 _ = V c main_v0 _
  refine congrArg _ ?_
  funext a
  apply Fin.ext
  match a with
  | ⟨0, _⟩ => show win0_3.index t 0 * 3072 + 1 * k.val = k.val; rw [h0]; omega
  | ⟨1, _⟩ => show win0_3.index t 1 * 1024 + 1 * n.val = n.val; rw [h1]; omega

/-- The first layer's tanh-side bias block is the whole bias row. -/
theorem left_hidden_bias_1 (c : Dev nD) (t : Fin cfg0.N) (k : Fin 1) (n : Fin 1024) :
    (Gen.iblk0 V c 4 t : Vec Ideal S1x1024 .f32) (ix2 k n) = V c main_v1 (ix2 k n) := by
  obtain ⟨-, -, h0, h1, -, -, -, -, -, -, -, -, -, -, -, -⟩ := left_whole_windows t
  unfold Gen.iblk0
  rw [View.read_apply]
  show V c main_v1 _ = V c main_v1 _
  refine congrArg _ ?_
  funext a
  apply Fin.ext
  match a with
  | ⟨0, _⟩ => show win0_4.index t 0 * 1 + 1 * k.val = k.val; rw [h0]; omega
  | ⟨1, _⟩ => show win0_4.index t 1 * 1024 + 1 * n.val = n.val; rw [h1]; omega

/-- The first layer's logistic-side weight block is the whole weight array. -/
theorem left_gate_weights_1 (c : Dev nD) (t : Fin cfg0.N) (k : Fin 3072) (n : Fin 1024) :
    (Gen.iblk0 V c 5 t : Vec Ideal S3072x1024 .bf16) (ix2 k n) = V c main_v2 (ix2 k n) := by
  obtain ⟨-, -, -, -, h0, h1, -, -, -, -, -, -, -, -, -, -⟩ := left_whole_windows t
  unfold Gen.iblk0
  rw [View.read_apply]
  show V c main_v2 _ = V c main_v2 _
  refine congrArg _ ?_
  funext a
  apply Fin.ext
  match a with
  | ⟨0, _⟩ => show win0_5.index t 0 * 3072 + 1 * k.val = k.val; rw [h0]; omega
  | ⟨1, _⟩ => show win0_5.index t 1 * 1024 + 1 * n.val = n.val; rw [h1]; omega

/-- The first layer's logistic-side bias block is the whole bias row. -/
theorem left_gate_bias_1 (c : Dev nD) (t : Fin cfg0.N) (k : Fin 1) (n : Fin 1024) :
    (Gen.iblk0 V c 6 t : Vec Ideal S1x1024 .f32) (ix2 k n) = V c main_v3 (ix2 k n) := by
  obtain ⟨-, -, -, -, -, -, h0, h1, -, -, -, -, -, -, -, -⟩ := left_whole_windows t
  unfold Gen.iblk0
  rw [View.read_apply]
  show V c main_v3 _ = V c main_v3 _
  refine congrArg _ ?_
  funext a
  apply Fin.ext
  match a with
  | ⟨0, _⟩ => show win0_6.index t 0 * 1 + 1 * k.val = k.val; rw [h0]; omega
  | ⟨1, _⟩ => show win0_6.index t 1 * 1024 + 1 * n.val = n.val; rw [h1]; omega

/-- The second layer's tanh-side weight block is the whole weight array. -/
theorem left_hidden_weights_2 (c : Dev nD) (t : Fin cfg0.N) (k : Fin 1024) (n : Fin 1024) :
    (Gen.iblk0 V c 7 t : Vec Ideal S1024x1024 .bf16) (ix2 k n) = V c main_v4 (ix2 k n) := by
  obtain ⟨-, -, -, -, -, -, -, -, h0, h1, -, -, -, -, -, -⟩ := left_whole_windows t
  unfold Gen.iblk0
  rw [View.read_apply]
  show V c main_v4 _ = V c main_v4 _
  refine congrArg _ ?_
  funext a
  apply Fin.ext
  match a with
  | ⟨0, _⟩ => show win0_7.index t 0 * 1024 + 1 * k.val = k.val; rw [h0]; omega
  | ⟨1, _⟩ => show win0_7.index t 1 * 1024 + 1 * n.val = n.val; rw [h1]; omega

/-- The second layer's tanh-side bias block is the whole bias row. -/
theorem left_hidden_bias_2 (c : Dev nD) (t : Fin cfg0.N) (k : Fin 1) (n : Fin 1024) :
    (Gen.iblk0 V c 8 t : Vec Ideal S1x1024 .f32) (ix2 k n) = V c main_v5 (ix2 k n) := by
  obtain ⟨-, -, -, -, -, -, -, -, -, -, h0, h1, -, -, -, -⟩ := left_whole_windows t
  unfold Gen.iblk0
  rw [View.read_apply]
  show V c main_v5 _ = V c main_v5 _
  refine congrArg _ ?_
  funext a
  apply Fin.ext
  match a with
  | ⟨0, _⟩ => show win0_8.index t 0 * 1 + 1 * k.val = k.val; rw [h0]; omega
  | ⟨1, _⟩ => show win0_8.index t 1 * 1024 + 1 * n.val = n.val; rw [h1]; omega

/-- The second layer's logistic-side weight block is the whole weight array. -/
theorem left_gate_weights_2 (c : Dev nD) (t : Fin cfg0.N) (k : Fin 1024) (n : Fin 1024) :
    (Gen.iblk0 V c 9 t : Vec Ideal S1024x1024 .bf16) (ix2 k n) = V c main_v6 (ix2 k n) := by
  obtain ⟨-, -, -, -, -, -, -, -, -, -, -, -, h0, h1, -, -⟩ := left_whole_windows t
  unfold Gen.iblk0
  rw [View.read_apply]
  show V c main_v6 _ = V c main_v6 _
  refine congrArg _ ?_
  funext a
  apply Fin.ext
  match a with
  | ⟨0, _⟩ => show win0_9.index t 0 * 1024 + 1 * k.val = k.val; rw [h0]; omega
  | ⟨1, _⟩ => show win0_9.index t 1 * 1024 + 1 * n.val = n.val; rw [h1]; omega

/-- The second layer's logistic-side bias block is the whole bias row. -/
theorem left_gate_bias_2 (c : Dev nD) (t : Fin cfg0.N) (k : Fin 1) (n : Fin 1024) :
    (Gen.iblk0 V c 10 t : Vec Ideal S1x1024 .f32) (ix2 k n) = V c main_v7 (ix2 k n) := by
  obtain ⟨-, -, -, -, -, -, -, -, -, -, -, -, -, -, h0, h1⟩ := left_whole_windows t
  unfold Gen.iblk0
  rw [View.read_apply]
  show V c main_v7 _ = V c main_v7 _
  refine congrArg _ ?_
  funext a
  apply Fin.ext
  match a with
  | ⟨0, _⟩ => show win0_10.index t 0 * 1 + 1 * k.val = k.val; rw [h0]; omega
  | ⟨1, _⟩ => show win0_10.index t 1 * 1024 + 1 * n.val = n.val; rw [h1]; omega

/-! ## The array the blocks are blocks of -/

/-- Entry (r, q) of the left network's result on the arrays as the region finds them: it depends on row `r` of the three
    activation arrays only. -/
def leftEntry (c : Dev nD) (r : Fin 8192) (q : Fin 1024) : EReal :=
  Spec.leftNet (fun k => V c main_arg0 (ix2 r k)) (fun k => V c main_arg1 (ix2 r k)) (fun k => V c main_arg2 (ix2 r k))
    (fun k n => V c main_v0 (ix2 k n)) (fun n => V c main_v1 (ix2 (0 : Fin 1) n))
    (fun k n => V c main_v2 (ix2 k n)) (fun n => V c main_v3 (ix2 (0 : Fin 1) n))
    (fun k n => V c main_v4 (ix2 k n)) (fun n => V c main_v5 (ix2 (0 : Fin 1) n))
    (fun k n => V c main_v6 (ix2 k n)) (fun n => V c main_v7 (ix2 (0 : Fin 1) n)) q

/-- The whole result array: the left network row by row. -/
def leftArray (c : Dev nD) : S8192x1024.Idx → EReal := fun j => leftEntry V c (j 0) (j 1)

/-- Entry (p, q) of the output block at point `t` sits at row `128 t + p`, column `q` of the output array. -/
theorem left_out_position (t : Fin cfg0.N) (p : Fin 128) (q : Fin 1024) (r : Fin 8192) (hr : r.val = 128 * t.val + p.val) :
    ((cfg0.win 11).blk t).view.emb (ix2 p q) = (ix2 r q : S8192x1024.Idx) := by
  obtain ⟨-, -, -, -, -, -, h0, h1⟩ := left_row_windows t
  funext a
  apply Fin.ext
  match a with
  | ⟨0, _⟩ => show win0_11.index t 0 * 128 + 1 * p.val = r.val; rw [h0, hr]; omega
  | ⟨1, _⟩ => show win0_11.index t 1 * 1024 + 1 * q.val = q.val; rw [h1]; omega

/-- What point `t` writes back is block `t` of the row-by-row array: the block the body stores is, entry by entry, the
    left network of a row of the input blocks, and that row of each activation block is the row of the array at the
    output entry's own position. -/
theorem left_flushed (c : Dev nD) (t : Fin cfg0.N) :
    (Gen.dat0 (F := Ideal) V c).flushed 11 t = ((cfg0.win 11).blk t).view.read (Elt Ideal) (leftArray V c) := by
  show (cfg0.win 11).cut (grid0.coords t) ((Gen.dat0 (F := Ideal) V c).after 11 t) = _
  rw [Gen.after0_11]
  funext y
  obtain ⟨p, q, rfl⟩ : ∃ (p : Fin 128) (q : Fin 1024), y = ix2 p q := ⟨y 0, y 1, eq_ix2 y⟩
  have hN : cfg0.N = 64 := Gen.N_0
  have ht : t.val < 64 := hN ▸ t.isLt
  have hrow : 128 * t.val + p.val < 8192 := by have := p.isLt; omega
  show Gen.out0_11 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) (Gen.iblk0 V c 9 t)
        (Gen.iblk0 V c 10 t) (ix2 p q) = leftArray V c (((cfg0.win 11).blk t).view.emb (ix2 p q))
  rw [left_out_position t p q ⟨128 * t.val + p.val, hrow⟩ rfl]
  refine (left_block (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) (Gen.iblk0 V c 9 t)
        (Gen.iblk0 V c 10 t) p q).trans ?_
  show _ = leftEntry V c ⟨128 * t.val + p.val, hrow⟩ q
  unfold leftEntry
  rw [funext fun k => left_hidden_block V c t p k ⟨128 * t.val + p.val, hrow⟩ rfl,
    funext fun k => left_context_block V c t p k ⟨128 * t.val + p.val, hrow⟩ rfl,
    funext fun k => left_label_block V c t p k ⟨128 * t.val + p.val, hrow⟩ rfl,
    funext fun k => funext fun n => left_hidden_weights_1 V c t k n,
    funext fun n => left_hidden_bias_1 V c t 0 n,
    funext fun k => funext fun n => left_gate_weights_1 V c t k n,
    funext fun n => left_gate_bias_1 V c t 0 n,
    funext fun k => funext fun n => left_hidden_weights_2 V c t k n,
    funext fun n => left_hidden_bias_2 V c t 0 n,
    funext fun k => funext fun n => left_gate_weights_2 V c t k n,
    funext fun n => left_gate_bias_2 V c t 0 n]

/-! ## The blocks cover the array -/

/-- An index of the output array is in point `t`'s block iff each coordinate is in the block's range on its axis. -/
theorem left_mem_block (t : Fin cfg0.N) (i : S8192x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v8).slice (win0_11.rect t)).set ↔ _
  rw [View.set_slice_whole, Rect.mem_set_unit]
  exact Iff.rfl

/-- Every entry of the output array is written back by some point: row `r` by point `r / 128`. -/
theorem left_covered (i : S8192x1024.Idx) :
    ∃ t : Fin cfg0.N, (cfg0.win 11).flush t = true ∧ i ∈ ((cfg0.win 11).blk t).view.set := by
  have hN : cfg0.N = 64 := Gen.N_0
  have hi0 : (i 0).val < 8192 := (i 0).isLt
  have hi1 : (i 1).val < 1024 := (i 1).isLt
  have hlt : (i 0).val / 128 < cfg0.N := by rw [hN]; omega
  refine ⟨⟨(i 0).val / 128, hlt⟩, Gen.flush0_11 _, ?_⟩
  rw [left_mem_block]
  obtain ⟨-, -, -, -, -, -, e0, e1⟩ := left_row_windows ⟨(i 0).val / 128, hlt⟩
  intro a
  match a with
  | ⟨0, _⟩ =>
    show win0_11.index ⟨(i 0).val / 128, hlt⟩ (0 : Fin 2) * 128 ≤ (i 0).val ∧ (i 0).val < win0_11.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_11.index ⟨(i 0).val / 128, hlt⟩ (1 : Fin 2) * 1024 ≤ (i 1).val ∧ (i 1).val < win0_11.index ⟨(i 0).val / 128, hlt⟩ (1 : Fin 2) * 1024 + 1024
    rw [e1]; omega

/-! ## The array after the 64 points -/

/-- The output array after the 64 points is the row-by-row array: every point writes back its block of it, and the
    blocks cover it. -/
theorem left_final (c : Dev nD) : (Gen.dat0 (F := Ideal) V c).arrAt 11 cfg0.N = leftArray V c :=
  (Gen.dat0 (F := Ideal) V c).arrAt_eq_of_cover 11 (leftArray V c) (fun t _ => left_flushed V c t) left_covered

/-- The left kernel's output array when its 64 grid points have run, entry (r, q): the left network of row `r` of the
    three activation arrays and the whole weight and bias arrays, as the region found them. -/
theorem left_array (c : Dev nD) (r : Fin 8192) (q : Fin 1024) :
    (Gen.dat0 (F := Ideal) V c).arrAt 11 cfg0.N (ix2 r q)
      = Spec.leftNet (fun k => V c main_arg0 (ix2 r k)) (fun k => V c main_arg1 (ix2 r k)) (fun k => V c main_arg2 (ix2 r k))
          (fun k n => V c main_v0 (ix2 k n)) (fun n => V c main_v1 (ix2 (0 : Fin 1) n))
          (fun k n => V c main_v2 (ix2 k n)) (fun n => V c main_v3 (ix2 (0 : Fin 1) n))
          (fun k n => V c main_v4 (ix2 k n)) (fun n => V c main_v5 (ix2 (0 : Fin 1) n))
          (fun k n => V c main_v6 (ix2 k n)) (fun n => V c main_v7 (ix2 (0 : Fin 1) n)) q := by
  rw [left_final V c]
  rfl

end Cert.KernelValue

end
-- ==== Proof.BodyR.lean ====
import proofs.«161753_j35167192220017_1_alg».proof.Proof.Gen.KernelIdeal.Frame
import proofs.«161753_j35167192220017_1_alg».proof.Proof.Spec
import proofs.«161753_j35167192220017_1_alg».proof.Proof.BodyGate
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Idealize.ShloMosaic Idealize.ShloMosaic.TcCoe Idealize.ShloMosaic.ValueIdx Idealize.SL.Sem Cert.KernelIdeal

/-- The right kernel's second-layer input (the three input blocks joined, one gated layer with the first pair of weights, its
    result joined with the fourth input block), read at row p and column k: the first layer's row p followed by the fourth block's row p. -/
theorem right_first_layer (v0 v1 v2 : Vec Ideal S128x1024 .f32) (v5 : Vec Ideal S3072x1024 .bf16) (v8 : Vec Ideal S1x1024 .f32)
    (v12 : Vec Ideal S3072x1024 .bf16) (v15 : Vec Ideal S1x1024 .f32) (v22 : Vec Ideal S128x1024 .f32) (p : Fin 128) (k : Fin 2048) :
    Gen.k1_pay2 (F := Ideal) v0 v1 v2 v5 v8 v12 v15 v22 (ix2 p k)
      = Spec.row2 (Spec.gate (Spec.row3 (fun k => v0 (ix2 p k)) (fun k => v1 (ix2 p k)) (fun k => v2 (ix2 p k)))
          (fun k n => v5 (ix2 k n)) (fun n => v8 (ix2 (0 : Fin 1) n)) (fun k n => v12 (ix2 k n)) (fun n => v15 (ix2 (0 : Fin 1) n)))
          (fun k => v22 (ix2 p k)) k := by
  unfold Gen.k1_pay2
  refine (truncf_apply (s := S128x2048) (φ := .f32) (ψ := .bf16) _ _ (ix2 p k)).trans ?_
  refine (Gate.cat2_apply _ v22 p k).trans ?_
  refine congrArg (fun f => Spec.row2 f (fun k => v22 (ix2 p k)) k) (funext fun j => ?_)
  exact Gate.gate3072 _ v5 v12 v8 v15 p j _
    (fun k' => (truncf_apply (s := S128x3072) (φ := .f32) (ψ := .bf16) _ _ (ix2 p k')).trans (Gate.cat3_apply v0 v1 v2 p k'))

/-- One entry of the block the right kernel stores at a grid point, as the right network of row `p` of its four
    input blocks and the whole weight and bias blocks. -/
theorem right_block (x0 x1 x2 x3 : Vec Ideal S128x1024 .f32) (x4 : Vec Ideal S3072x1024 .bf16) (x5 : Vec Ideal S1x1024 .f32)
    (x6 : Vec Ideal S3072x1024 .bf16) (x7 : Vec Ideal S1x1024 .f32) (x8 : Vec Ideal S2048x1024 .bf16) (x9 : Vec Ideal S1x1024 .f32)
    (x10 : Vec Ideal S2048x1024 .bf16) (x11 : Vec Ideal S1x1024 .f32) (p : Fin 128) (q : Fin 1024) :
    Gen.out1_12 (F := Ideal) x0 x1 x2 x3 x4 x5 x6 x7 x8 x9 x10 x11 (ix2 p q)
      = Spec.rightNet (fun k => x0 (ix2 p k)) (fun k => x1 (ix2 p k)) (fun k => x2 (ix2 p k)) (fun k => x3 (ix2 p k))
          (fun k n => x4 (ix2 k n)) (fun n => x5 (ix2 (0 : Fin 1) n)) (fun k n => x6 (ix2 k n)) (fun n => x7 (ix2 (0 : Fin 1) n))
          (fun k n => x8 (ix2 k n)) (fun n => x9 (ix2 (0 : Fin 1) n)) (fun k n => x10 (ix2 k n)) (fun n => x11 (ix2 (0 : Fin 1) n)) q := by
  have hz : (![0, 0] : Fin 2 → Nat) = fun _ => 0 := funext fun a => by fin_cases a <;> rfl
  unfold Gen.out1_12
  rw [View.canon_unit_zero hz]
  simp only [View.ld_unit_zero (S := S128x1024) hz, View.ld_unit_zero (S := S3072x1024) hz, View.ld_unit_zero (S := S1x1024) hz,
    View.ld_unit_zero (S := S2048x1024) hz]
  unfold Gen.k1_pay1 Gen.k1_pay3 Gen.k1_pay4 Spec.rightNet
  exact Gate.gate2048 (Gen.k1_pay2 x0 x1 x2 x4 x5 x6 x7 x3) x8 x10 x9 x11 p q _ (fun k => right_first_layer x0 x1 x2 x4 x5 x6 x7 x3 p k)

end Cert.KernelValue

end
-- ==== Proof.Blocks1.lean ====
import proofs.«161753_j35167192220017_1_alg».proof.Proof.BodyR

noncomputable section

namespace Cert.KernelValue

open Idealize.ShloMosaic Idealize.ShloMosaic.TcCoe Idealize.ShloMosaic.ValueIdx Idealize.SL.Sem Cert.KernelIdeal

variable (V : (c : Dev nD) → (b : Ref sig .tc) → Buf (Elt Ideal) ((c : Thread nD τ).loc b))

/-! ## Where each window's block sits at a grid point -/

/-- The block index maps of the windows that move with the grid, over the 64 points: the four activation windows and
    the output window take block `t` of 128 rows (and the one block of 1024 columns) at point `t`. -/
theorem right_row_windows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_12.index t (0 : Fin 2) = t.val ∧ win1_12.index t (1 : Fin 2) = 0 :=
  (by decide +kernel : ∀ t : Fin grid1.N, _)

/-- The block index maps of the weight and bias windows, over the 64 points: always the one block that is the whole array. -/
theorem right_whole_windows : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-! ## Each input block read where it sits in its array

  An element of a block sits in the array, on each axis, at block index × block size + its coordinate in the block. So row
  `p` of an activation block at point `t` is row `128 t + p` of the activation array, and a weight or bias block is its
  whole array. -/

/-- Row `p` of the hidden-state block at point `t` is row `128 t + p` of the hidden-state array. -/
theorem right_hidden_block (c : Dev nD) (t : Fin cfg1.N) (p : Fin 128) (k : Fin 1024) (r : Fin 8192)
    (hr : r.val = 128 * t.val + p.val) :
    (Gen.iblk1 V c 0 t : Vec Ideal S128x1024 .f32) (ix2 p k) = V c main_arg0 (ix2 r k) := by
  obtain ⟨h0, h1, -, -, -, -, -, -, -, -⟩ := right_row_windows t
  unfold Gen.iblk1
  rw [View.read_apply]
  show V c main_arg0 _ = V c main_arg0 _
  refine congrArg _ ?_
  funext a
  apply Fin.ext
  match a with
  | ⟨0, _⟩ => show win1_0.index t 0 * 128 + 1 * p.val = r.val; rw [h0, hr]; omega
  | ⟨1, _⟩ => show win1_0.index t 1 * 1024 + 1 * k.val = k.val; rw [h1]; omega

/-- Row `p` of the context block at point `t` is row `128 t + p` of the context array. -/
theorem right_context_block (c : Dev nD) (t : Fin cfg1.N) (p : Fin 128) (k : Fin 1024) (r : Fin 8192)
    (hr : r.val = 128 * t.val + p.val) :
    (Gen.iblk1 V c 1 t : Vec Ideal S128x1024 .f32) (ix2 p k) = V c main_arg1 (ix2 r k) := by
  obtain ⟨-, -, h0, h1, -, -, -, -, -, -⟩ := right_row_windows t
  unfold Gen.iblk1
  rw [View.read_apply]
  show V c main_arg1 _ = V c main_arg1 _
  refine congrArg _ ?_
  funext a
  apply Fin.ext
  match a with
  | ⟨0, _⟩ => show win1_1.index t 0 * 128 + 1 * p.val = r.val; rw [h0, hr]; omega
  | ⟨1, _⟩ => show win1_1.index t 1 * 1024 + 1 * k.val = k.val; rw [h1]; omega

/-- Row `p` of the label block at point `t` is row `128 t + p` of the label array. -/
theorem right_label_block (c : Dev nD) (t : Fin cfg1.N) (p : Fin 128) (k : Fin 1024) (r : Fin 8192)
    (hr : r.val = 128 * t.val + p.val) :
    (Gen.iblk1 V c 2 t : Vec Ideal S128x1024 .f32) (ix2 p k) = V c main_arg2 (ix2 r k) := by
  obtain ⟨-, -, -, -, h0, h1, -, -, -, -⟩ := right_row_windows t
  unfold Gen.iblk1
  rw [View.read_apply]
  show V c main_arg2 _ = V c main_arg2 _
  refine congrArg _ ?_
  funext a
  apply Fin.ext
  match a with
  | ⟨0, _⟩ => show win1_2.index t 0 * 128 + 1 * p.val = r.val; rw [h0, hr]; omega
  | ⟨1, _⟩ => show win1_2.index t 1 * 1024 + 1 * k.val = k.val; rw [h1]; omega

/-- Row `p` of the left-embedding block at point `t` is row `128 t + p` of the left-embedding array. -/
theorem right_embedding_block (c : Dev nD) (t : Fin cfg1.N) (p : Fin 128) (k : Fin 1024) (r : Fin 8192)
    (hr : r.val = 128 * t.val + p.val) :
    (Gen.iblk1 V c 3 t : Vec Ideal S128x1024 .f32) (ix2 p k) = V c main_arg3 (ix2 r k) := by
  obtain ⟨-, -, -, -, -, -, h0, h1, -, -⟩ := right_row_windows t
  unfold Gen.iblk1
  rw [View.read_apply]
  show V c main_arg3 _ = V c main_arg3 _
  refine congrArg _ ?_
  funext a
  apply Fin.ext
  match a with
  | ⟨0, _⟩ => show win1_3.index t 0 * 128 + 1 * p.val = r.val; rw [h0, hr]; omega
  | ⟨1, _⟩ => show win1_3.index t 1 * 1024 + 1 * k.val = k.val; rw [h1]; omega

/-- The first layer's tanh-side weight block is the whole weight array. -/
theorem right_hidden_weights_1 (c : Dev nD) (t : Fin cfg1.N) (k : Fin 3072) (n : Fin 1024) :
    (Gen.iblk1 V c 4 t : Vec Ideal S3072x1024 .bf16) (ix2 k n) = V c main_v9 (ix2 k n) := by
  obtain ⟨h0, h1, -, -, -, -, -, -, -, -, -, -, -, -, -, -⟩ := right_whole_windows t
  unfold Gen.iblk1
  rw [View.read_apply]
  show V c main_v9 _ = V c main_v9 _
  refine congrArg _ ?_
  funext a
  apply Fin.ext
  match a with
  | ⟨0, _⟩ => show win1_4.index t 0 * 3072 + 1 * k.val = k.val; rw [h0]; omega
  | ⟨1, _⟩ => show win1_4.index t 1 * 1024 + 1 * n.val = n.val; rw [h1]; omega

/-- The first layer's tanh-side bias block is the whole bias row. -/
theorem right_hidden_bias_1 (c : Dev nD) (t : Fin cfg1.N) (k : Fin 1) (n : Fin 1024) :
    (Gen.iblk1 V c 5 t : Vec Ideal S1x1024 .f32) (ix2 k n) = V c main_v10 (ix2 k n) := by
  obtain ⟨-, -, h0, h1, -, -, -, -, -, -, -, -, -, -, -, -⟩ := right_whole_windows t
  unfold Gen.iblk1
  rw [View.read_apply]
  show V c main_v10 _ = V c main_v10 _
  refine congrArg _ ?_
  funext a
  apply Fin.ext
  match a with
  | ⟨0, _⟩ => show win1_5.index t 0 * 1 + 1 * k.val = k.val; rw [h0]; omega
  | ⟨1, _⟩ => show win1_5.index t 1 * 1024 + 1 * n.val = n.val; rw [h1]; omega

/-- The first layer's logistic-side weight block is the whole weight array. -/
theorem right_gate_weights_1 (c : Dev nD) (t : Fin cfg1.N) (k : Fin 3072) (n : Fin 1024) :
    (Gen.iblk1 V c 6 t : Vec Ideal S3072x1024 .bf16) (ix2 k n) = V c main_v11 (ix2 k n) := by
  obtain ⟨-, -, -, -, h0, h1, -, -, -, -, -, -, -, -, -, -⟩ := right_whole_windows t
  unfold Gen.iblk1
  rw [View.read_apply]
  show V c main_v11 _ = V c main_v11 _
  refine congrArg _ ?_
  funext a
  apply Fin.ext
  match a with
  | ⟨0, _⟩ => show win1_6.index t 0 * 3072 + 1 * k.val = k.val; rw [h0]; omega
  | ⟨1, _⟩ => show win1_6.index t 1 * 1024 + 1 * n.val = n.val; rw [h1]; omega

/-- The first layer's logistic-side bias block is the whole bias row. -/
theorem right_gate_bias_1 (c : Dev nD) (t : Fin cfg1.N) (k : Fin 1) (n : Fin 1024) :
    (Gen.iblk1 V c 7 t : Vec Ideal S1x1024 .f32) (ix2 k n) = V c main_v12 (ix2 k n) := by
  obtain ⟨-, -, -, -, -, -, h0, h1, -, -, -, -, -, -, -, -⟩ := right_whole_windows t
  unfold Gen.iblk1
  rw [View.read_apply]
  show V c main_v12 _ = V c main_v12 _
  refine congrArg _ ?_
  funext a
  apply Fin.ext
  match a with
  | ⟨0, _⟩ => show win1_7.index t 0 * 1 + 1 * k.val = k.val; rw [h0]; omega
  | ⟨1, _⟩ => show win1_7.index t 1 * 1024 + 1 * n.val = n.val; rw [h1]; omega

/-- The second layer's tanh-side weight block is the whole weight array. -/
theorem right_hidden_weights_2 (c : Dev nD) (t : Fin cfg1.N) (k : Fin 2048) (n : Fin 1024) :
    (Gen.iblk1 V c 8 t : Vec Ideal S2048x1024 .bf16) (ix2 k n) = V c main_v13 (ix2 k n) := by
  obtain ⟨-, -, -, -, -, -, -, -, h0, h1, -, -, -, -, -, -⟩ := right_whole_windows t
  unfold Gen.iblk1
  rw [View.read_apply]
  show V c main_v13 _ = V c main_v13 _
  refine congrArg _ ?_
  funext a
  apply Fin.ext
  match a with
  | ⟨0, _⟩ => show win1_8.index t 0 * 2048 + 1 * k.val = k.val; rw [h0]; omega
  | ⟨1, _⟩ => show win1_8.index t 1 * 1024 + 1 * n.val = n.val; rw [h1]; omega

/-- The second layer's tanh-side bias block is the whole bias row. -/
theorem right_hidden_bias_2 (c : Dev nD) (t : Fin cfg1.N) (k : Fin 1) (n : Fin 1024) :
    (Gen.iblk1 V c 9 t : Vec Ideal S1x1024 .f32) (ix2 k n) = V c main_v14 (ix2 k n) := by
  obtain ⟨-, -, -, -, -, -, -, -, -, -, h0, h1, -, -, -, -⟩ := right_whole_windows t
  unfold Gen.iblk1
  rw [View.read_apply]
  show V c main_v14 _ = V c main_v14 _
  refine congrArg _ ?_
  funext a
  apply Fin.ext
  match a with
  | ⟨0, _⟩ => show win1_9.index t 0 * 1 + 1 * k.val = k.val; rw [h0]; omega
  | ⟨1, _⟩ => show win1_9.index t 1 * 1024 + 1 * n.val = n.val; rw [h1]; omega

/-- The second layer's logistic-side weight block is the whole weight array. -/
theorem right_gate_weights_2 (c : Dev nD) (t : Fin cfg1.N) (k : Fin 2048) (n : Fin 1024) :
    (Gen.iblk1 V c 10 t : Vec Ideal S2048x1024 .bf16) (ix2 k n) = V c main_v15 (ix2 k n) := by
  obtain ⟨-, -, -, -, -, -, -, -, -, -, -, -, h0, h1, -, -⟩ := right_whole_windows t
  unfold Gen.iblk1
  rw [View.read_apply]
  show V c main_v15 _ = V c main_v15 _
  refine congrArg _ ?_
  funext a
  apply Fin.ext
  match a with
  | ⟨0, _⟩ => show win1_10.index t 0 * 2048 + 1 * k.val = k.val; rw [h0]; omega
  | ⟨1, _⟩ => show win1_10.index t 1 * 1024 + 1 * n.val = n.val; rw [h1]; omega

/-- The second layer's logistic-side bias block is the whole bias row. -/
theorem right_gate_bias_2 (c : Dev nD) (t : Fin cfg1.N) (k : Fin 1) (n : Fin 1024) :
    (Gen.iblk1 V c 11 t : Vec Ideal S1x1024 .f32) (ix2 k n) = V c main_v16 (ix2 k n) := by
  obtain ⟨-, -, -, -, -, -, -, -, -, -, -, -, -, -, h0, h1⟩ := right_whole_windows t
  unfold Gen.iblk1
  rw [View.read_apply]
  show V c main_v16 _ = V c main_v16 _
  refine congrArg _ ?_
  funext a
  apply Fin.ext
  match a with
  | ⟨0, _⟩ => show win1_11.index t 0 * 1 + 1 * k.val = k.val; rw [h0]; omega
  | ⟨1, _⟩ => show win1_11.index t 1 * 1024 + 1 * n.val = n.val; rw [h1]; omega

/-! ## The array the blocks are blocks of -/

/-- Entry (r, q) of the right network's result on the arrays as the region finds them: it depends on row `r` of the four
    activation arrays only. -/
def rightEntry (c : Dev nD) (r : Fin 8192) (q : Fin 1024) : EReal :=
  Spec.rightNet (fun k => V c main_arg0 (ix2 r k)) (fun k => V c main_arg1 (ix2 r k)) (fun k => V c main_arg2 (ix2 r k))
    (fun k => V c main_arg3 (ix2 r k))
    (fun k n => V c main_v9 (ix2 k n)) (fun n => V c main_v10 (ix2 (0 : Fin 1) n))
    (fun k n => V c main_v11 (ix2 k n)) (fun n => V c main_v12 (ix2 (0 : Fin 1) n))
    (fun k n => V c main_v13 (ix2 k n)) (fun n => V c main_v14 (ix2 (0 : Fin 1) n))
    (fun k n => V c main_v15 (ix2 k n)) (fun n => V c main_v16 (ix2 (0 : Fin 1) n)) q

/-- The whole result array: the right network row by row. -/
def rightArray (c : Dev nD) : S8192x1024.Idx → EReal := fun j => rightEntry V c (j 0) (j 1)

/-- Entry (p, q) of the output block at point `t` sits at row `128 t + p`, column `q` of the output array. -/
theorem right_out_position (t : Fin cfg1.N) (p : Fin 128) (q : Fin 1024) (r : Fin 8192) (hr : r.val = 128 * t.val + p.val) :
    ((cfg1.win 12).blk t).view.emb (ix2 p q) = (ix2 r q : S8192x1024.Idx) := by
  obtain ⟨-, -, -, -, -, -, -, -, h0, h1⟩ := right_row_windows t
  funext a
  apply Fin.ext
  match a with
  | ⟨0, _⟩ => show win1_12.index t 0 * 128 + 1 * p.val = r.val; rw [h0, hr]; omega
  | ⟨1, _⟩ => show win1_12.index t 1 * 1024 + 1 * q.val = q.val; rw [h1]; omega

/-- What point `t` writes back is block `t` of the row-by-row array: the block the body stores is, entry by entry, the
    right network of a row of the input blocks, and that row of each activation block is the row of the array at the
    output entry's own position. -/
theorem right_flushed (c : Dev nD) (t : Fin cfg1.N) :
    (Gen.dat1 (F := Ideal) V c).flushed 12 t = ((cfg1.win 12).blk t).view.read (Elt Ideal) (rightArray V c) := by
  show (cfg1.win 12).cut (grid1.coords t) ((Gen.dat1 (F := Ideal) V c).after 12 t) = _
  rw [Gen.after1_12]
  funext y
  obtain ⟨p, q, rfl⟩ : ∃ (p : Fin 128) (q : Fin 1024), y = ix2 p q := ⟨y 0, y 1, eq_ix2 y⟩
  have hN : cfg1.N = 64 := Gen.N_1
  have ht : t.val < 64 := hN ▸ t.isLt
  have hrow : 128 * t.val + p.val < 8192 := by have := p.isLt; omega
  show Gen.out1_12 (F := Ideal) (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) (Gen.iblk1 V c 9 t)
        (Gen.iblk1 V c 10 t) (Gen.iblk1 V c 11 t) (ix2 p q) = rightArray V c (((cfg1.win 12).blk t).view.emb (ix2 p q))
  rw [right_out_position t p q ⟨128 * t.val + p.val, hrow⟩ rfl]
  refine (right_block (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) (Gen.iblk1 V c 9 t)
        (Gen.iblk1 V c 10 t) (Gen.iblk1 V c 11 t) p q).trans ?_
  show _ = rightEntry V c ⟨128 * t.val + p.val, hrow⟩ q
  unfold rightEntry
  rw [funext fun k => right_hidden_block V c t p k ⟨128 * t.val + p.val, hrow⟩ rfl,
    funext fun k => right_context_block V c t p k ⟨128 * t.val + p.val, hrow⟩ rfl,
    funext fun k => right_label_block V c t p k ⟨128 * t.val + p.val, hrow⟩ rfl,
    funext fun k => right_embedding_block V c t p k ⟨128 * t.val + p.val, hrow⟩ rfl,
    funext fun k => funext fun n => right_hidden_weights_1 V c t k n,
    funext fun n => right_hidden_bias_1 V c t 0 n,
    funext fun k => funext fun n => right_gate_weights_1 V c t k n,
    funext fun n => right_gate_bias_1 V c t 0 n,
    funext fun k => funext fun n => right_hidden_weights_2 V c t k n,
    funext fun n => right_hidden_bias_2 V c t 0 n,
    funext fun k => funext fun n => right_gate_weights_2 V c t k n,
    funext fun n => right_gate_bias_2 V c t 0 n]

/-! ## The blocks cover the array -/

/-- An index of the output array is in point `t`'s block iff each coordinate is in the block's range on its axis. -/
theorem right_mem_block (t : Fin cfg1.N) (i : S8192x1024.Idx) :
    i ∈ ((cfg1.win 12).blk t).view.set ↔ ∀ a : Fin 2, win1_12.index t a * S128x1024.size a ≤ (i a).val ∧ (i a).val < win1_12.index t a * S128x1024.size a + S128x1024.size a := by
  show i ∈ ((View.whole main_v17).slice (win1_12.rect t)).set ↔ _
  rw [View.set_slice_whole, Rect.mem_set_unit]
  exact Iff.rfl

/-- Every entry of the output array is written back by some point: row `r` by point `r / 128`. -/
theorem right_covered (i : S8192x1024.Idx) :
    ∃ t : Fin cfg1.N, (cfg1.win 12).flush t = true ∧ i ∈ ((cfg1.win 12).blk t).view.set := by
  have hN : cfg1.N = 64 := Gen.N_1
  have hi0 : (i 0).val < 8192 := (i 0).isLt
  have hi1 : (i 1).val < 1024 := (i 1).isLt
  have hlt : (i 0).val / 128 < cfg1.N := by rw [hN]; omega
  refine ⟨⟨(i 0).val / 128, hlt⟩, Gen.flush1_12 _, ?_⟩
  rw [right_mem_block]
  obtain ⟨-, -, -, -, -, -, -, -, e0, e1⟩ := right_row_windows ⟨(i 0).val / 128, hlt⟩
  intro a
  match a with
  | ⟨0, _⟩ =>
    show win1_12.index ⟨(i 0).val / 128, hlt⟩ (0 : Fin 2) * 128 ≤ (i 0).val ∧ (i 0).val < win1_12.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win1_12.index ⟨(i 0).val / 128, hlt⟩ (1 : Fin 2) * 1024 ≤ (i 1).val ∧ (i 1).val < win1_12.index ⟨(i 0).val / 128, hlt⟩ (1 : Fin 2) * 1024 + 1024
    rw [e1]; omega

/-! ## The array after the 64 points -/

/-- The output array after the 64 points is the row-by-row array: every point writes back its block of it, and the
    blocks cover it. -/
theorem right_final (c : Dev nD) : (Gen.dat1 (F := Ideal) V c).arrAt 12 cfg1.N = rightArray V c :=
  (Gen.dat1 (F := Ideal) V c).arrAt_eq_of_cover 12 (rightArray V c) (fun t _ => right_flushed V c t) right_covered

/-- The right kernel's output array when its 64 grid points have run, entry (r, q): the right network of row `r` of the
    four activation arrays and the whole weight and bias arrays, as the region found them. -/
theorem right_array (c : Dev nD) (r : Fin 8192) (q : Fin 1024) :
    (Gen.dat1 (F := Ideal) V c).arrAt 12 cfg1.N (ix2 r q)
      = Spec.rightNet (fun k => V c main_arg0 (ix2 r k)) (fun k => V c main_arg1 (ix2 r k)) (fun k => V c main_arg2 (ix2 r k))
          (fun k => V c main_arg3 (ix2 r k))
          (fun k n => V c main_v9 (ix2 k n)) (fun n => V c main_v10 (ix2 (0 : Fin 1) n))
          (fun k n => V c main_v11 (ix2 k n)) (fun n => V c main_v12 (ix2 (0 : Fin 1) n))
          (fun k n => V c main_v13 (ix2 k n)) (fun n => V c main_v14 (ix2 (0 : Fin 1) n))
          (fun k n => V c main_v15 (ix2 k n)) (fun n => V c main_v16 (ix2 (0 : Fin 1) n)) q := by
  rw [right_final V c]
  rfl

end Cert.KernelValue

end
-- ==== Proof.RefLayer.lean ====
/-
  What the reference's two networks share, stated once: an array made by joining arrays of columns side by side, read
  at one entry, and one gated layer in the reference's spelling (the logistic function written as the quotient
  1 / (1 + exp (-x))) identified with the specification's gated layer.
-/
import proofs.«161753_j35167192220017_1_alg».proof.Proof.Gen.ReferenceIdeal.Read
import proofs.«161753_j35167192220017_1_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Idealize.SL.Sem Cert.ReferenceIdeal Cert.ReferenceIdeal.Read

/-- Two arrays of 1024 columns joined along the columns, read at entry (r, k): row r of the first for k below 1024,
    row r of the second, 1024 columns to the left, otherwise. -/
theorem cat2_at {α : Type} (h : Shape.Concatenates [S8192x1024, S8192x1024] S8192x2048 1)
    (a b : S8192x1024.Idx → α) (r : Fin 8192) (k : Fin 2048) :
    concatenate S8192x2048 1 [⟨S8192x1024, a⟩, ⟨S8192x1024, b⟩] h (ix2 r k)
      = if hk : k.val < 1024 then a (ix2 r ⟨k.val, hk⟩) else b (ix2 r ⟨k.val - 1024, by omega⟩) := by
  split
  · next hk =>
    exact concatenate_pair_apply_left 1 a b h (ix2 r k) rfl (ix2 r ⟨k.val, hk⟩)
      (fun c => match c with | ⟨0, _⟩ => rfl | ⟨1, _⟩ => rfl)
  · next hk =>
    exact concatenate_pair_apply_right 1 a b h (ix2 r k) rfl rfl (ix2 r ⟨k.val - 1024, by omega⟩)
      (fun c hc => match c, hc with | ⟨0, _⟩, _ => rfl | ⟨1, _⟩, hc => absurd rfl hc)
      (by show k.val - 1024 + 1024 = k.val; omega)

/-- An array of 1024 columns and one of 2048 joined along the columns, read at entry (r, k). -/
theorem cat3_at {α : Type} (h : Shape.Concatenates [S8192x1024, S8192x2048] S8192x3072 1)
    (a : S8192x1024.Idx → α) (b : S8192x2048.Idx → α) (r : Fin 8192) (k : Fin 3072) :
    concatenate S8192x3072 1 [⟨S8192x1024, a⟩, ⟨S8192x2048, b⟩] h (ix2 r k)
      = if hk : k.val < 1024 then a (ix2 r ⟨k.val, hk⟩) else b (ix2 r ⟨k.val - 1024, by omega⟩) := by
  split
  · next hk =>
    exact concatenate_pair_apply_left 1 a b h (ix2 r k) rfl (ix2 r ⟨k.val, hk⟩)
      (fun c => match c with | ⟨0, _⟩ => rfl | ⟨1, _⟩ => rfl)
  · next hk =>
    exact concatenate_pair_apply_right 1 a b h (ix2 r k) rfl rfl (ix2 r ⟨k.val - 1024, by omega⟩)
      (fun c hc => match c, hc with | ⟨0, _⟩, _ => rfl | ⟨1, _⟩, hc => absurd rfl hc)
      (by show k.val - 1024 + 1024 = k.val; omega)

/-- Three arrays of 1024 columns joined as first | (second | third), read at entry (r, k). -/
theorem cat_row3 {α : Type} (h3 : Shape.Concatenates [S8192x1024, S8192x2048] S8192x3072 1)
    (h2 : Shape.Concatenates [S8192x1024, S8192x1024] S8192x2048 1)
    (a b c : S8192x1024.Idx → α) (r : Fin 8192) (k : Fin 3072) :
    concatenate S8192x3072 1 [⟨S8192x1024, a⟩, ⟨S8192x2048, concatenate S8192x2048 1 [⟨S8192x1024, b⟩, ⟨S8192x1024, c⟩] h2⟩] h3 (ix2 r k)
      = if h : k.val < 1024 then a (ix2 r ⟨k.val, h⟩)
        else if h' : k.val < 2048 then b (ix2 r ⟨k.val - 1024, by omega⟩)
        else c (ix2 r ⟨k.val - 2048, by omega⟩) := by
  rw [cat3_at]
  by_cases h : k.val < 1024
  · rw [dif_pos h, dif_pos h]
  · rw [dif_neg h, dif_neg h, cat2_at]
    by_cases h' : k.val < 2048
    · rw [dif_pos h', dif_pos (show k.val - 1024 < 1024 by omega)]
    · rw [dif_neg h', dif_neg (show ¬ k.val - 1024 < 1024 by omega)]
      exact congrArg c (congrArg (ix2 r) (Fin.ext (show k.val - 1024 - 1024 = k.val - 2048 by omega)))

/-- A gated layer as the reference spells it, the logistic function as a quotient. -/
theorem gate_form {K : Nat} (x : Fin K → EReal) (wh : Fin K → Fin 1024 → EReal) (bh : Fin 1024 → EReal)
    (wg : Fin K → Fin 1024 → EReal) (bg : Fin 1024 → EReal) (q : Fin 1024) :
    (FloatOps.mulf (F := Ideal) (φ := .f32) (FloatOps.hostUnary .tanh (FloatOps.addf (∑ k : Fin K, x k * wh k q) (bh q)))
      (FloatOps.hostDivf (FloatOps.ofBits .f32 0x3F800000#32)
        (FloatOps.addf (FloatOps.ofBits .f32 0x3F800000#32)
          (FloatOps.hostUnary .exp (FloatOps.hostNegf (FloatOps.addf (∑ k : Fin K, x k * wg k q) (bg q)))))))
      = Spec.gate x wh bh wg bg q := by
  simp only [Ideal.mulf_def, Ideal.hostUnary_tanh_def, Ideal.addf_def, Ideal.hostDivf_def, Ideal.ofBits_def,
    Ideal.hostUnary_exp_def, Ideal.hostNegf_def, Ideal.negf_def, Spec.logistic_as_quotient]
  rfl

end Cert.RefValue

end
-- ==== Proof.RefL.lean ====
/-
  The reference's left network read at one entry.  Its first layer joins the three activation arrays along the
  columns and applies a gated layer with the 3072-row weights; its second applies a gated layer with the 1024-row
  weights to the first layer's result.  Entry (r, q) of every stage depends on row r of the activations only.
-/
import proofs.«161753_j35167192220017_1_alg».proof.Proof.Gen.ReferenceIdeal.Read
import proofs.«161753_j35167192220017_1_alg».proof.Proof.Spec
import proofs.«161753_j35167192220017_1_alg».proof.Proof.RefLayer
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Idealize.SL.Sem Cert.ReferenceIdeal Cert.ReferenceIdeal.Read

/-- The joined activations (hidden | context | label) at entry (r, k). -/
theorem v1_at (x0 x1 x2 : (⟨S8192x1024, .f32⟩ : BufTy).Contents (Elt Ideal)) (r : Fin 8192) (k : Fin 3072) :
    val_main_v1 (F := Ideal) x0 x1 x2 (ix2 r k)
      = Spec.row3 (fun k => x0 (ix2 r k)) (fun k => x1 (ix2 r k)) (fun k => x2 (ix2 r k)) k := by
  unfold val_main_v1 val_main_v0 Spec.row3
  exact cat_row3 _ _ x0 x1 x2 r k

theorem lidx_v2 (r : Fin 8192) (n : Fin 1024) (k : Fin 3072) : lidx_main_v2 (ix2 r n) k = ix2 r k :=
  funext fun a => Fin.ext (by match a with | ⟨0, _⟩ => rfl | ⟨1, _⟩ => rfl)
theorem ridx_v2 (r : Fin 8192) (n : Fin 1024) (k : Fin 3072) : ridx_main_v2 (ix2 r n) k = ix2 k n :=
  funext fun a => Fin.ext (by match a with | ⟨0, _⟩ => rfl | ⟨1, _⟩ => rfl)
theorem lidx_v7 (r : Fin 8192) (n : Fin 1024) (k : Fin 3072) : lidx_main_v7 (ix2 r n) k = ix2 r k :=
  funext fun a => Fin.ext (by match a with | ⟨0, _⟩ => rfl | ⟨1, _⟩ => rfl)
theorem ridx_v7 (r : Fin 8192) (n : Fin 1024) (k : Fin 3072) : ridx_main_v7 (ix2 r n) k = ix2 k n :=
  funext fun a => Fin.ext (by match a with | ⟨0, _⟩ => rfl | ⟨1, _⟩ => rfl)
theorem bias_v4 (r : Fin 8192) (n : Fin 1024) : idx_main_v3 (idx_main_v4 (ix2 r n)) = ix1 n :=
  funext fun a => Fin.ext (by match a with | ⟨0, _⟩ => rfl)
theorem bias_v9 (r : Fin 8192) (n : Fin 1024) : idx_main_v8 (idx_main_v9 (ix2 r n)) = ix1 n :=
  funext fun a => Fin.ext (by match a with | ⟨0, _⟩ => rfl)

/-- The left network's first layer at entry (r, n). -/
theorem v17_at (x0 x1 x2 : (⟨S8192x1024, .f32⟩ : BufTy).Contents (Elt Ideal)) (x5 : (⟨S3072x1024, .f32⟩ : BufTy).Contents (Elt Ideal))
    (x6 : (⟨S1024, .f32⟩ : BufTy).Contents (Elt Ideal)) (x7 : (⟨S3072x1024, .f32⟩ : BufTy).Contents (Elt Ideal))
    (x8 : (⟨S1024, .f32⟩ : BufTy).Contents (Elt Ideal)) (r : Fin 8192) (n : Fin 1024) :
    val_main_v17 (F := Ideal) x0 x1 x2 x5 x6 x7 x8 (ix2 r n)
      = Spec.gate (Spec.row3 (fun k => x0 (ix2 r k)) (fun k => x1 (ix2 r k)) (fun k => x2 (ix2 r k)))
          (fun k n => x5 (ix2 k n)) (fun n => x6 (ix1 n)) (fun k n => x7 (ix2 k n)) (fun n => x8 (ix1 n)) n := by
  rw [val_main_v17_apply, val_main_v6_apply, val_main_v5_apply, val_main_v2_apply, val_main_v4_apply, val_main_v3_apply,
    val_main_v16_apply, val_main_v15_apply, val_main_cst_0_apply, val_main_v14_apply, val_main_v13_apply, val_main_cst_apply,
    val_main_v12_apply, val_main_v11_apply, val_main_v10_apply, val_main_v7_apply, val_main_v9_apply, val_main_v8_apply]
  simp only [lidx_v2, ridx_v2, lidx_v7, ridx_v7, bias_v4, bias_v9, v1_at]
  exact gate_form (Spec.row3 (fun k => x0 (ix2 r k)) (fun k => x1 (ix2 r k)) (fun k => x2 (ix2 r k)))
    (fun k n => x5 (ix2 k n)) (fun n => x6 (ix1 n)) (fun k n => x7 (ix2 k n)) (fun n => x8 (ix1 n)) n

theorem lidx_v18 (r : Fin 8192) (n : Fin 1024) (k : Fin 1024) : lidx_main_v18 (ix2 r n) k = ix2 r k :=
  funext fun a => Fin.ext (by match a with | ⟨0, _⟩ => rfl | ⟨1, _⟩ => rfl)
theorem ridx_v18 (r : Fin 8192) (n : Fin 1024) (k : Fin 1024) : ridx_main_v18 (ix2 r n) k = ix2 k n :=
  funext fun a => Fin.ext (by match a with | ⟨0, _⟩ => rfl | ⟨1, _⟩ => rfl)
theorem lidx_v23 (r : Fin 8192) (n : Fin 1024) (k : Fin 1024) : lidx_main_v23 (ix2 r n) k = ix2 r k :=
  funext fun a => Fin.ext (by match a with | ⟨0, _⟩ => rfl | ⟨1, _⟩ => rfl)
theorem ridx_v23 (r : Fin 8192) (n : Fin 1024) (k : Fin 1024) : ridx_main_v23 (ix2 r n) k = ix2 k n :=
  funext fun a => Fin.ext (by match a with | ⟨0, _⟩ => rfl | ⟨1, _⟩ => rfl)
theorem bias_v20 (r : Fin 8192) (n : Fin 1024) : idx_main_v19 (idx_main_v20 (ix2 r n)) = ix1 n :=
  funext fun a => Fin.ext (by match a with | ⟨0, _⟩ => rfl)
theorem bias_v25 (r : Fin 8192) (n : Fin 1024) : idx_main_v24 (idx_main_v25 (ix2 r n)) = ix1 n :=
  funext fun a => Fin.ext (by match a with | ⟨0, _⟩ => rfl)

/-- The reference's left result at entry (r, q) is the left network of row `r` of the three activation arrays and
    the whole weight and bias arrays. -/
theorem left_ref (x0 x1 x2 : (⟨S8192x1024, .f32⟩ : BufTy).Contents (Elt Ideal)) (x5 : (⟨S3072x1024, .f32⟩ : BufTy).Contents (Elt Ideal))
    (x6 : (⟨S1024, .f32⟩ : BufTy).Contents (Elt Ideal)) (x7 : (⟨S3072x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) (x11 : (⟨S1024x1024, .f32⟩ : BufTy).Contents (Elt Ideal))
    (x12 : (⟨S1024, .f32⟩ : BufTy).Contents (Elt Ideal)) (r : Fin 8192) (q : Fin 1024) :
    val_main_v33 (F := Ideal) x0 x1 x2 x5 x6 x7 x8 x9 x10 x11 x12 (ix2 r q)
      = Spec.leftNet (fun k => x0 (ix2 r k)) (fun k => x1 (ix2 r k)) (fun k => x2 (ix2 r k))
          (fun k n => x5 (ix2 k n)) (fun n => x6 (ix1 n)) (fun k n => x7 (ix2 k n)) (fun n => x8 (ix1 n))
          (fun k n => x9 (ix2 k n)) (fun n => x10 (ix1 n)) (fun k n => x11 (ix2 k n)) (fun n => x12 (ix1 n)) q := by
  rw [val_main_v33_apply, val_main_v22_apply, val_main_v21_apply, val_main_v18_apply, val_main_v20_apply, val_main_v19_apply,
    val_main_v32_apply, val_main_v31_apply, val_main_cst_2_apply, val_main_v30_apply, val_main_v29_apply, val_main_cst_1_apply,
    val_main_v28_apply, val_main_v27_apply, val_main_v26_apply, val_main_v23_apply, val_main_v25_apply, val_main_v24_apply]
  simp only [lidx_v18, ridx_v18, lidx_v23, ridx_v23, bias_v20, bias_v25, v17_at]
  exact gate_form
    (Spec.gate (Spec.row3 (fun k => x0 (ix2 r k)) (fun k => x1 (ix2 r k)) (fun k => x2 (ix2 r k)))
      (fun k n => x5 (ix2 k n)) (fun n => x6 (ix1 n)) (fun k n => x7 (ix2 k n)) (fun n => x8 (ix1 n)))
    (fun k n => x9 (ix2 k n)) (fun n => x10 (ix1 n)) (fun k n => x11 (ix2 k n)) (fun n => x12 (ix1 n)) q

end Cert.RefValue

end
-- ==== Proof.RefR.lean ====
/-
  The reference's right network read at one entry.  Its first layer is a gated layer on the three joined activation
  arrays; its second joins the first layer's result with the left embedding along the columns and applies a gated
  layer with the 2048-row weights.  Entry (r, q) of every stage depends on row r of the activations only.
-/
import proofs.«161753_j35167192220017_1_alg».proof.Proof.Gen.ReferenceIdeal.Read
import proofs.«161753_j35167192220017_1_alg».proof.Proof.Spec
import proofs.«161753_j35167192220017_1_alg».proof.Proof.RefLayer
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Idealize.SL.Sem Cert.ReferenceIdeal Cert.ReferenceIdeal.Read

/-- The joined activations (hidden | context | label) at entry (r, k). -/
theorem v34_at (x0 x1 x2 : (⟨S8192x1024, .f32⟩ : BufTy).Contents (Elt Ideal)) (r : Fin 8192) (k : Fin 3072) :
    val_main_v34 (F := Ideal) x0 x1 x2 (ix2 r k)
      = Spec.row3 (fun k => x0 (ix2 r k)) (fun k => x1 (ix2 r k)) (fun k => x2 (ix2 r k)) k := by
  unfold val_main_v34 val_main_v0 Spec.row3
  exact cat_row3 _ _ x0 x1 x2 r k

theorem lidx_v35 (r : Fin 8192) (n : Fin 1024) (k : Fin 3072) : lidx_main_v35 (ix2 r n) k = ix2 r k :=
  funext fun a => Fin.ext (by match a with | ⟨0, _⟩ => rfl | ⟨1, _⟩ => rfl)
theorem ridx_v35 (r : Fin 8192) (n : Fin 1024) (k : Fin 3072) : ridx_main_v35 (ix2 r n) k = ix2 k n :=
  funext fun a => Fin.ext (by match a with | ⟨0, _⟩ => rfl | ⟨1, _⟩ => rfl)
theorem lidx_v40 (r : Fin 8192) (n : Fin 1024) (k : Fin 3072) : lidx_main_v40 (ix2 r n) k = ix2 r k :=
  funext fun a => Fin.ext (by match a with | ⟨0, _⟩ => rfl | ⟨1, _⟩ => rfl)
theorem ridx_v40 (r : Fin 8192) (n : Fin 1024) (k : Fin 3072) : ridx_main_v40 (ix2 r n) k = ix2 k n :=
  funext fun a => Fin.ext (by match a with | ⟨0, _⟩ => rfl | ⟨1, _⟩ => rfl)
theorem bias_v37 (r : Fin 8192) (n : Fin 1024) : idx_main_v36 (idx_main_v37 (ix2 r n)) = ix1 n :=
  funext fun a => Fin.ext (by match a with | ⟨0, _⟩ => rfl)
theorem bias_v42 (r : Fin 8192) (n : Fin 1024) : idx_main_v41 (idx_main_v42 (ix2 r n)) = ix1 n :=
  funext fun a => Fin.ext (by match a with | ⟨0, _⟩ => rfl)

/-- The right network's first layer at entry (r, n). -/
theorem v50_at (x0 x1 x2 : (⟨S8192x1024, .f32⟩ : BufTy).Contents (Elt Ideal)) (x13 : (⟨S3072x1024, .f32⟩ : BufTy).Contents (Elt Ideal))
    (x14 : (⟨S1024, .f32⟩ : BufTy).Contents (Elt Ideal)) (x15 : (⟨S3072x1024, .f32⟩ : BufTy).Contents (Elt Ideal))
    (x16 : (⟨S1024, .f32⟩ : BufTy).Contents (Elt Ideal)) (r : Fin 8192) (n : Fin 1024) :
    val_main_v50 (F := Ideal) x0 x1 x2 x13 x14 x15 x16 (ix2 r n)
      = Spec.gate (Spec.row3 (fun k => x0 (ix2 r k)) (fun k => x1 (ix2 r k)) (fun k => x2 (ix2 r k)))
      (fun k n => x13 (ix2 k n)) (fun n => x14 (ix1 n)) (fun k n => x15 (ix2 k n)) (fun n => x16 (ix1 n)) n := by
  rw [val_main_v50_apply, val_main_v39_apply, val_main_v38_apply, val_main_v35_apply, val_main_v37_apply, val_main_v36_apply,
    val_main_v49_apply, val_main_v48_apply, val_main_cst_4_apply, val_main_v47_apply, val_main_v46_apply, val_main_cst_3_apply,
    val_main_v45_apply, val_main_v44_apply, val_main_v43_apply, val_main_v40_apply, val_main_v42_apply, val_main_v41_apply]
  simp only [lidx_v35, ridx_v35, lidx_v40, ridx_v40, bias_v37, bias_v42, v34_at]
  exact gate_form (Spec.row3 (fun k => x0 (ix2 r k)) (fun k => x1 (ix2 r k)) (fun k => x2 (ix2 r k)))
    (fun k n => x13 (ix2 k n)) (fun n => x14 (ix1 n)) (fun k n => x15 (ix2 k n)) (fun n => x16 (ix1 n)) n

/-- The first layer's result joined with the left embedding, at entry (r, k). -/
theorem v51_at (x0 x1 x2 x3 : (⟨S8192x1024, .f32⟩ : BufTy).Contents (Elt Ideal)) (x13 : (⟨S3072x1024, .f32⟩ : BufTy).Contents (Elt Ideal))
    (x14 : (⟨S1024, .f32⟩ : BufTy).Contents (Elt Ideal)) (x15 : (⟨S3072x1024, .f32⟩ : BufTy).Contents (Elt Ideal))
    (x16 : (⟨S1024, .f32⟩ : BufTy).Contents (Elt Ideal)) (r : Fin 8192) (k : Fin 2048) :
    val_main_v51 (F := Ideal) x0 x1 x2 x3 x13 x14 x15 x16 (ix2 r k)
      = Spec.row2 (Spec.gate (Spec.row3 (fun k => x0 (ix2 r k)) (fun k => x1 (ix2 r k)) (fun k => x2 (ix2 r k)))
      (fun k n => x13 (ix2 k n)) (fun n => x14 (ix1 n)) (fun k n => x15 (ix2 k n)) (fun n => x16 (ix1 n))) (fun k => x3 (ix2 r k)) k := by
  unfold val_main_v51 Spec.row2
  rw [cat2_at]
  by_cases h : k.val < 1024
  · rw [dif_pos h, dif_pos h, v50_at]
  · rw [dif_neg h, dif_neg h]

theorem lidx_v52 (r : Fin 8192) (n : Fin 1024) (k : Fin 2048) : lidx_main_v52 (ix2 r n) k = ix2 r k :=
  funext fun a => Fin.ext (by match a with | ⟨0, _⟩ => rfl | ⟨1, _⟩ => rfl)
theorem ridx_v52 (r : Fin 8192) (n : Fin 1024) (k : Fin 2048) : ridx_main_v52 (ix2 r n) k = ix2 k n :=
  funext fun a => Fin.ext (by match a with | ⟨0, _⟩ => rfl | ⟨1, _⟩ => rfl)
theorem lidx_v57 (r : Fin 8192) (n : Fin 1024) (k : Fin 2048) : lidx_main_v57 (ix2 r n) k = ix2 r k :=
  funext fun a => Fin.ext (by match a with | ⟨0, _⟩ => rfl | ⟨1, _⟩ => rfl)
theorem ridx_v57 (r : Fin 8192) (n : Fin 1024) (k : Fin 2048) : ridx_main_v57 (ix2 r n) k = ix2 k n :=
  funext fun a => Fin.ext (by match a with | ⟨0, _⟩ => rfl | ⟨1, _⟩ => rfl)
theorem bias_v54 (r : Fin 8192) (n : Fin 1024) : idx_main_v53 (idx_main_v54 (ix2 r n)) = ix1 n :=
  funext fun a => Fin.ext (by match a with | ⟨0, _⟩ => rfl)
theorem bias_v59 (r : Fin 8192) (n : Fin 1024) : idx_main_v58 (idx_main_v59 (ix2 r n)) = ix1 n :=
  funext fun a => Fin.ext (by match a with | ⟨0, _⟩ => rfl)

/-- The reference's right result at entry (r, q) is the right network of row `r` of the four activation arrays and
    the whole weight and bias arrays. -/
theorem right_ref (x0 x1 x2 x3 : (⟨S8192x1024, .f32⟩ : BufTy).Contents (Elt Ideal)) (x13 : (⟨S3072x1024, .f32⟩ : BufTy).Contents (Elt Ideal))
    (x14 : (⟨S1024, .f32⟩ : BufTy).Contents (Elt Ideal)) (x15 : (⟨S3072x1024, .f32⟩ : BufTy).Contents (Elt Ideal))
    (x16 : (⟨S1024, .f32⟩ : BufTy).Contents (Elt Ideal)) (x17 : (⟨S2048x1024, .f32⟩ : BufTy).Contents (Elt Ideal))
    (x18 : (⟨S1024, .f32⟩ : BufTy).Contents (Elt Ideal)) (x19 : (⟨S2048x1024, .f32⟩ : BufTy).Contents (Elt Ideal))
    (x20 : (⟨S1024, .f32⟩ : BufTy).Contents (Elt Ideal)) (r : Fin 8192) (q : Fin 1024) :
    val_main_v67 (F := Ideal) x0 x1 x2 x3 x13 x14 x15 x16 x17 x18 x19 x20 (ix2 r q)
      = Spec.rightNet (fun k => x0 (ix2 r k)) (fun k => x1 (ix2 r k)) (fun k => x2 (ix2 r k)) (fun k => x3 (ix2 r k))
          (fun k n => x13 (ix2 k n)) (fun n => x14 (ix1 n)) (fun k n => x15 (ix2 k n)) (fun n => x16 (ix1 n))
          (fun k n => x17 (ix2 k n)) (fun n => x18 (ix1 n)) (fun k n => x19 (ix2 k n)) (fun n => x20 (ix1 n)) q := by
  rw [val_main_v67_apply, val_main_v56_apply, val_main_v55_apply, val_main_v52_apply, val_main_v54_apply, val_main_v53_apply,
    val_main_v66_apply, val_main_v65_apply, val_main_cst_6_apply, val_main_v64_apply, val_main_v63_apply, val_main_cst_5_apply,
    val_main_v62_apply, val_main_v61_apply, val_main_v60_apply, val_main_v57_apply, val_main_v59_apply, val_main_v58_apply]
  simp only [lidx_v52, ridx_v52, lidx_v57, ridx_v57, bias_v54, bias_v59, v51_at]
  exact gate_form
    (Spec.row2 (Spec.gate (Spec.row3 (fun k => x0 (ix2 r k)) (fun k => x1 (ix2 r k)) (fun k => x2 (ix2 r k)))
      (fun k n => x13 (ix2 k n)) (fun n => x14 (ix1 n)) (fun k n => x15 (ix2 k n)) (fun n => x16 (ix1 n))) (fun k => x3 (ix2 r k)))
    (fun k n => x17 (ix2 k n)) (fun n => x18 (ix1 n)) (fun k n => x19 (ix2 k n)) (fun n => x20 (ix1 n)) q

end Cert.RefValue

end
-- ==== Proof.Bridge.lean ====
/-
  The two programs' results are one array.  Each entry of the left (right) region's output array is the left (right)
  network of one row of the launch arrays: the region finds the activations as launched, the weights rounded to bf16 —
  which changes nothing on the extended reals — and the biases as rows.  The reference's two intermediate results are the
  same networks of the same rows, and both programs end with the same row-wise selection.
-/
import proofs.«161753_j35167192220017_1_alg».proof.Defs
import proofs.«161753_j35167192220017_1_alg».proof.Proof.Gen.ReferenceIdeal.Read
import proofs.«161753_j35167192220017_1_alg».proof.Proof.Glue
import proofs.«161753_j35167192220017_1_alg».proof.Proof.Blocks0
import proofs.«161753_j35167192220017_1_alg».proof.Proof.Blocks1
import proofs.«161753_j35167192220017_1_alg».proof.Proof.RefL
import proofs.«161753_j35167192220017_1_alg».proof.Proof.RefR

noncomputable section

namespace Cert.Bridge

open Idealize.ShloMosaic Idealize.ShloMosaic.TcCoe Idealize.ShloMosaic.ValueIdx Idealize.SL.Sem

section Kernel

open Cert.KernelIdeal Cert.KernelIdeal.Gen Cert.KernelValue

/-- A row of 1024 entries reshaped to the one row of a [1,1024] array: entry (0, n) is entry n. -/
theorem row_cast (v : (⟨S1024, .f32⟩ : BufTy).Contents (Elt Ideal)) (n : Fin 1024) :
    shapeCast S1x1024 v shapeCasts_S1024_S1x1024 (ix2 (0 : Fin 1) n) = v (ix1 n) :=
  shapeCast_apply v shapeCasts_S1024_S1x1024 (ix2 (0 : Fin 1) n) (ix1 n) (by
    rw [Shape.rowMajor_val_two, Shape.rowMajor_val_one]; show n.val = 0 * _ + n.val; omega)

/-- The same for the whole row. -/
theorem row_cast_fun (v : (⟨S1024, .f32⟩ : BufTy).Contents (Elt Ideal)) :
    (fun n : Fin 1024 => shapeCast S1x1024 v shapeCasts_S1024_S1x1024 (ix2 (0 : Fin 1) n)) = fun n => v (ix1 n) :=
  funext fun n => row_cast v n

variable (m : (ℓ : Loc nD τ sig) → Buf (Elt Ideal) ℓ) (ρ : Dev nD → PrngReg)

/-- The left region's output array, entry (r, q): the left network of row `r` of the launch arrays. -/
theorem left_entry (c : Dev nD) (r : Fin 8192) (q : Fin 1024) :
    (dat0 (F := Ideal) (V1 m ρ) c).arrAt 11 cfg0.N (ix2 r q)
      = Spec.leftNet (fun k => m ((c : Thread nD τ).loc main_arg0) (ix2 r k)) (fun k => m ((c : Thread nD τ).loc main_arg1) (ix2 r k)) (fun k => m ((c : Thread nD τ).loc main_arg2) (ix2 r k))
          (fun k n => m ((c : Thread nD τ).loc main_arg5) (ix2 k n)) (fun n => m ((c : Thread nD τ).loc main_arg6) (ix1 n))
          (fun k n => m ((c : Thread nD τ).loc main_arg7) (ix2 k n)) (fun n => m ((c : Thread nD τ).loc main_arg8) (ix1 n))
          (fun k n => m ((c : Thread nD τ).loc main_arg9) (ix2 k n)) (fun n => m ((c : Thread nD τ).loc main_arg10) (ix1 n))
          (fun k n => m ((c : Thread nD τ).loc main_arg11) (ix2 k n)) (fun n => m ((c : Thread nD τ).loc main_arg12) (ix1 n)) q := by
  rw [left_array (V1 m ρ) c r q, V1_arg0, V1_arg1, V1_arg2, V1_v0, V1_v1, V1_v2, V1_v3, V1_v4, V1_v5, V1_v6, V1_v7,
    row_cast_fun (m ((c : Thread nD τ).loc main_arg6)), row_cast_fun (m ((c : Thread nD τ).loc main_arg8)), row_cast_fun (m ((c : Thread nD τ).loc main_arg10)),
    row_cast_fun (m ((c : Thread nD τ).loc main_arg12))]
  rfl

/-- The right region's output array, entry (r, q): the right network of row `r` of the launch arrays. -/
theorem right_entry (c : Dev nD) (r : Fin 8192) (q : Fin 1024) :
    (dat1 (F := Ideal) (V3 m ρ) c).arrAt 12 cfg1.N (ix2 r q)
      = Spec.rightNet (fun k => m ((c : Thread nD τ).loc main_arg0) (ix2 r k)) (fun k => m ((c : Thread nD τ).loc main_arg1) (ix2 r k)) (fun k => m ((c : Thread nD τ).loc main_arg2) (ix2 r k))
          (fun k => m ((c : Thread nD τ).loc main_arg3) (ix2 r k))
          (fun k n => m ((c : Thread nD τ).loc main_arg13) (ix2 k n)) (fun n => m ((c : Thread nD τ).loc main_arg14) (ix1 n))
          (fun k n => m ((c : Thread nD τ).loc main_arg15) (ix2 k n)) (fun n => m ((c : Thread nD τ).loc main_arg16) (ix1 n))
          (fun k n => m ((c : Thread nD τ).loc main_arg17) (ix2 k n)) (fun n => m ((c : Thread nD τ).loc main_arg18) (ix1 n))
          (fun k n => m ((c : Thread nD τ).loc main_arg19) (ix2 k n)) (fun n => m ((c : Thread nD τ).loc main_arg20) (ix1 n)) q := by
  rw [right_array (V3 m ρ) c r q, V3_arg0, V3_arg1, V3_arg2, V3_arg3, V3_v9, V3_v10, V3_v11, V3_v12, V3_v13, V3_v14, V3_v15, V3_v16,
    row_cast_fun (m ((c : Thread nD τ).loc main_arg14)), row_cast_fun (m ((c : Thread nD τ).loc main_arg16)), row_cast_fun (m ((c : Thread nD τ).loc main_arg18)),
    row_cast_fun (m ((c : Thread nD τ).loc main_arg20))]
  rfl

end Kernel

section Final

open Cert.KernelIdeal.Gen Cert.KernelValue

/-- The reference's closing selection is the kernel program's: the same comparisons of the broadcast branch words
    with 0 and with 1, the same two selections, the same zero array. -/
theorem pick_ref {F : FTy → Type} [FloatOps F] (a4 : (⟨Cert.ReferenceIdeal.S8192, .i32⟩ : BufTy).Contents (Elt F))
    (L R : (⟨Cert.ReferenceIdeal.S8192x1024, .f32⟩ : BufTy).Contents (Elt F)) :
    select (Cert.ReferenceIdeal.Read.val_main_call1_v0 (F := F) a4) L
        (select (Cert.ReferenceIdeal.Read.val_main_call0_v0 (F := F) a4) R (Cert.ReferenceIdeal.Read.val_main_v73 (F := F)))
      = pick (F := F) a4 L R := by
  unfold pick Cert.ReferenceIdeal.Read.val_main_call1_v0 Cert.ReferenceIdeal.Read.val_main_call0_v0 Cert.ReferenceIdeal.Read.val_main_v73
    Cert.ReferenceIdeal.Read.val_main_v70 Cert.ReferenceIdeal.Read.val_main_v72 Cert.ReferenceIdeal.Read.val_main_v68 Cert.ReferenceIdeal.Read.val_main_v69
    Cert.ReferenceIdeal.Read.val_main_v71 Cert.ReferenceIdeal.Read.val_main_c Cert.ReferenceIdeal.Read.val_main_c_7 Cert.ReferenceIdeal.Read.val_main_cst_8
  rfl

/-- The same with the two selected arrays given up to equality. -/
theorem pick_ref_of {F : FTy → Type} [FloatOps F] (a4 : (⟨Cert.ReferenceIdeal.S8192, .i32⟩ : BufTy).Contents (Elt F))
    (L R L' R' : (⟨Cert.ReferenceIdeal.S8192x1024, .f32⟩ : BufTy).Contents (Elt F)) (hL : L' = L) (hR : R' = R) :
    select (Cert.ReferenceIdeal.Read.val_main_call1_v0 (F := F) a4) L'
        (select (Cert.ReferenceIdeal.Read.val_main_call0_v0 (F := F) a4) R' (Cert.ReferenceIdeal.Read.val_main_v73 (F := F)))
      = pick (F := F) a4 L R := by
  subst hL hR; exact pick_ref a4 L' R'

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's left intermediate result, computed from the kernel program's launch arrays, is the left region's
    output array: entry by entry both are the left network of the row. -/
theorem left_same (c : Dev Cert.KernelIdeal.nD) :
    Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = (dat0 (F := Ideal) (V1 m ρ) c).arrAt 11 Cert.KernelIdeal.cfg0.N := funext fun j => by
  obtain ⟨r, q, rfl⟩ : ∃ (r : Fin 8192) (q : Fin 1024), j = ix2 r q := ⟨j 0, j 1, eq_ix2 j⟩
  rw [Cert.RefValue.left_ref, left_entry]

/-- The same for the right intermediate result and the right region's output array. -/
theorem right_same (c : Dev Cert.KernelIdeal.nD) :
    Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      = (dat1 (F := Ideal) (V3 m ρ) c).arrAt 12 Cert.KernelIdeal.cfg1.N := funext fun j => by
  obtain ⟨r, q, rfl⟩ : ∃ (r : Fin 8192) (q : Fin 1024), j = ix2 r q := ⟨j 0, j 1, eq_ix2 j⟩
  rw [Cert.RefValue.right_ref, right_entry]

set_option maxHeartbeats 1000000 in
/-- The reference's result as the closing selection over its two intermediate results, all computed from the kernel
    program's launch arrays: the two memories agree on the arguments. -/
theorem ref_result (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.res_main_v75 m' c
      = select (Cert.ReferenceIdeal.Read.val_main_call1_v0 (F := Ideal) (m ((c.tc : Thread Cert.KernelIdeal.nD Cert.KernelIdeal.τ).loc Cert.KernelIdeal.main_arg4)))
          (Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
          (select (Cert.ReferenceIdeal.Read.val_main_call0_v0 (F := Ideal) (m ((c.tc : Thread Cert.KernelIdeal.nD Cert.KernelIdeal.τ).loc Cert.KernelIdeal.main_arg4)))
            (Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)))
            (Cert.ReferenceIdeal.Read.val_main_v73 (F := Ideal))) := by
  obtain ⟨h0, h1, h2, h3, h4, h5, h6, h7, h8, h9, h10, h11, h12, h13, h14, h15, h16, h17, h18, h19, h20⟩ := hag
  rw [Cert.ReferenceIdeal.Read.val_main_v75_eq, h0, h1, h2, h3, h4, h5, h6, h7, h8, h9, h10, h11, h12, h13, h14, h15, h16, h17, h18, h19, h20]
  rfl

/-- From memories that agree on the arguments, the reference's result array is the array the kernel program leaves in
    its result buffer. -/
theorem result_same (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Value.res_main_v75 m' c = W7 m ρ c (Proc.devRef .tc Cert.KernelIdeal.main_v25) :=
  (ref_result m m' c hag).trans
    ((pick_ref_of (m ((c.tc : Thread Cert.KernelIdeal.nD Cert.KernelIdeal.τ).loc Cert.KernelIdeal.main_arg4)) _ _ _ _ (left_same m ρ c) (right_same m ρ c)).trans (kernel_result m ρ c).symm)

end Final

end Cert.Bridge

end
-- ==== Proof.lean ====
/-
  The proof of `Cert.Claim`: the three frames, the (empty) idealization ledger, and the algebraic claim.

  The kernel program runs a "left" and a "right" gated two-layer network over blocks of 128 rows in two pallas_call
  regions and then selects, row by row, the left result, the right result or zero by the branch word; the reference
  computes the two networks on whole arrays and makes the same selection.  On the extended reals the rounding of the
  matmul operands to bf16 is the identity, a matmul into a zero accumulator and the host's dot_general are the same sum
  over the contracted axis, and the kernel's logistic and the host's 1 / (1 + exp (-x)) are one function, so both programs
  compute, entry by entry, the same function of the argument arrays (Proof/Spec.lean); every entry of a result row depends
  on that row of the activations only, which is why working block by block changes nothing.  No algebraic law beyond this
  is used, and the finiteness precondition is never opened.

  The frames of the two kernel programs are the generated ones; the reference's frame is its generated run with the result
  dropped.  For the algebraic claim the kernel program's result array is named by reading its run at every unscoped buffer
  (Proof/KRun.lean), the host operations around the regions are read off the fold of buffer contents (Proof/Glue.lean), each
  region's output array is the network of the rows (Proof/BodyGate, BodyL, BodyR: one block; Proof/Blocks0, Blocks1: the
  blocks cover the array), the reference's intermediate results are the same networks (Proof/RefLayer, RefL, RefR), and
  Proof/Bridge.lean joins the two sides.
-/
import proofs.«161753_j35167192220017_1_alg».proof.Defs
import proofs.«161753_j35167192220017_1_alg».proof.Proof.Gen.Kernel
import proofs.«161753_j35167192220017_1_alg».proof.Proof.Gen.Kernel.Skeleton
import proofs.«161753_j35167192220017_1_alg».proof.Proof.Gen.Kernel.Launch
import proofs.«161753_j35167192220017_1_alg».proof.Proof.Gen.Kernel.Points
import proofs.«161753_j35167192220017_1_alg».proof.Proof.Gen.Kernel.Frame
import proofs.«161753_j35167192220017_1_alg».proof.Proof.Gen.KernelIdeal
import proofs.«161753_j35167192220017_1_alg».proof.Proof.Gen.KernelIdeal.Skeleton
import proofs.«161753_j35167192220017_1_alg».proof.Proof.Gen.KernelIdeal.Launch
import proofs.«161753_j35167192220017_1_alg».proof.Proof.Gen.KernelIdeal.Points
import proofs.«161753_j35167192220017_1_alg».proof.Proof.Gen.KernelIdeal.Frame
import proofs.«161753_j35167192220017_1_alg».proof.Proof.Gen.ReferenceIdeal
import proofs.«161753_j35167192220017_1_alg».proof.Proof.Gen.Pre_finite_inputs
import proofs.«161753_j35167192220017_1_alg».proof.Proof.Gen.ReferenceIdeal.Run
import proofs.«161753_j35167192220017_1_alg».proof.Proof.Gen.ReferenceIdeal.Read
import proofs.«161753_j35167192220017_1_alg».proof.Proof.KRun
import proofs.«161753_j35167192220017_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program ends with its result buffer at the last boundary's contents and its arguments unchanged; the
    reference ends with its result at the composed term of its arguments; from memories that agree on the arguments the
    two arrays are equal (`Bridge.result_same`). -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W7 m ρ c (Proc.devRef .tc Cert.KernelIdeal.main_v25), ?_, ?_⟩
  · exact (θ_run Cert.KernelIdeal.defs _ _).mono (fun r h c => ⟨h c _ (Cert.KernelIdeal.Gen.mem_uc Cert.KernelIdeal.main_v25 (by decide)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c),
      (h c _ (Cert.KernelIdeal.Gen.mem_uc Cert.KernelIdeal.main_arg16 (by decide))).trans (Cert.KernelIdeal.Gen.W7_main_arg16 m ρ c),
      (h c _ (Cert.KernelIdeal.Gen.mem_uc Cert.KernelIdeal.main_arg17 (by decide))).trans (Cert.KernelIdeal.Gen.W7_main_arg17 m ρ c),
      (h c _ (Cert.KernelIdeal.Gen.mem_uc Cert.KernelIdeal.main_arg18 (by decide))).trans (Cert.KernelIdeal.Gen.W7_main_arg18 m ρ c),
      (h c _ (Cert.KernelIdeal.Gen.mem_uc Cert.KernelIdeal.main_arg19 (by decide))).trans (Cert.KernelIdeal.Gen.W7_main_arg19 m ρ c),
      (h c _ (Cert.KernelIdeal.Gen.mem_uc Cert.KernelIdeal.main_arg20 (by decide))).trans (Cert.KernelIdeal.Gen.W7_main_arg20 m ρ c)⟩) (Cert.KernelValue.run_all m ρ)
  · exact (θ_run Cert.ReferenceIdeal.defs _ _).mono (fun r h c => ⟨(h c).1.trans (Cert.Bridge.result_same m ρ m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
